-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x128 : Shape := ⟨2, ![300000, 128]⟩
abbrev S150000x64 : Shape := ⟨2, ![150000, 64]⟩
abbrev S2x600000 : Shape := ⟨2, ![2, 600000]⟩
abbrev S2x500000 : Shape := ⟨2, ![2, 500000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg24
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg21 : FVec F S32 .f32) (main_arg22 : FVec F S32x32 .f32) (main_arg23 : FVec F S32x1 .f32) (main_arg24 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg22
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32x1 .f32 := Host.absf main_arg23
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg24 main_v98 main_v101 main_c_39

def fn_part4 {F : FTy → Type} [FloatOps F] (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v63 : IVec S_ 1) (main_v67 : IVec S_ 1) : IVec S_ 1 :=
  let main_v68 : IVec S_ 1 := andi main_v63 main_v67
  let main_v69 : FVec F S32x32 .f32 := Host.absf main_arg17
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg19
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32x32 .f32 := Host.absf main_arg20
  let main_cst_32 : FVec F S_ .f32 := constant S_ .f32 0x7F800000#32
  fn_part5 (F := F) main_arg21 main_arg22 main_arg23 main_arg24 main_v83 main_v84 main_cst_32

def fn_part3 {F : FTy → Type} [FloatOps F] (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32x32 .f32 := Host.absf main_arg14
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg16
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg17 main_arg18 main_arg19 main_arg20 main_arg21 main_arg22 main_arg23 main_arg24 main_v63 main_v67

def fn_part2 {F : FTy → Type} [FloatOps F] (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v33 : IVec S_ 1) : IVec S_ 1 :=
  let main_v34 : FVec F S128x32 .f32 := Host.absf main_arg10
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S128x32 .f32 := Host.absf main_arg11
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg13
  let main_cst_18 : FVec F S_ .f32 := constant S_ .f32 0x7F800000#32
  let main_v50 : FVec F S64x32 .f32 := broadcastInDim S64x32 ![] bcast_S_S64x32 main_cst_18
  fn_part3 (F := F) main_arg14 main_arg15 main_arg16 main_arg17 main_arg18 main_arg19 main_arg20 main_arg21 main_arg22 main_arg23 main_arg24 main_v48 main_v49 main_v50

def fn_part1 {F : FTy → Type} [FloatOps F] (main_arg7 : FVec F S128x32 .f32) (main_arg8 : FVec F S64x32 .f32) (main_arg9 : FVec F S32 .f32) (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg7
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S64x32 .f32 := Host.absf main_arg8
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S300000x128 .f32) (main_arg1 : FVec F S150000x64 .f32) (main_arg2 : IVec S2x600000 32) (main_arg3 : IVec S2x500000 32) (main_arg4 : IVec S2x500000 32) (main_arg5 : FVec F S128x32 .f32) (main_arg6 : FVec F S32 .f32) (main_arg7 : FVec F S128x32 .f32) (main_arg8 : FVec F S64x32 .f32) (main_arg9 : FVec F S32 .f32) (main_arg10 : FVec F S128x32 .f32) (main_arg11 : FVec F S128x32 .f32) (main_arg12 : FVec F S32 .f32) (main_arg13 : FVec F S64x32 .f32) (main_arg14 : FVec F S32x32 .f32) (main_arg15 : FVec F S32 .f32) (main_arg16 : FVec F S32x32 .f32) (main_arg17 : FVec F S32x32 .f32) (main_arg18 : FVec F S32 .f32) (main_arg19 : FVec F S32x32 .f32) (main_arg20 : FVec F S32x32 .f32) (main_arg21 : FVec F S32 .f32) (main_arg22 : FVec F S32x32 .f32) (main_arg23 : FVec F S32x1 .f32) (main_arg24 : FVec F S1 .f32) : IVec S_ 1 :=
  let main_v0 : FVec F S300000x128 .f32 := Host.absf main_arg0
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S128x32 .f32 := Host.absf main_arg5
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S300000x128 : Shape := ⟨2, ![300000, 128]⟩
abbrev S150000x64 : Shape := ⟨2, ![150000, 64]⟩
abbrev S2x600000 : Shape := ⟨2, ![2, 600000]⟩
abbrev S2x500000 : Shape := ⟨2, ![2, 500000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S300000 : Shape := ⟨1, ![300000]⟩
abbrev S300000x1 : Shape := ⟨2, ![300000, 1]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S300000x64 : Shape := ⟨2, ![300000, 64]⟩
abbrev S500000x128 : Shape := ⟨2, ![500000, 128]⟩
abbrev S150000x128 : Shape := ⟨2, ![150000, 128]⟩
abbrev S150000 : Shape := ⟨1, ![150000]⟩
abbrev S150000x1 : Shape := ⟨2, ![150000, 1]⟩
abbrev S1x32 : Shape := ⟨2, ![1, 32]⟩
abbrev S300000x32 : Shape := ⟨2, ![300000, 32]⟩
abbrev S6000x128 : Shape := ⟨2, ![6000, 128]⟩
abbrev S6000x64 : Shape := ⟨2, ![6000, 64]⟩
abbrev S6000x32 : Shape := ⟨2, ![6000, 32]⟩
abbrev S150000x32 : Shape := ⟨2, ![150000, 32]⟩
abbrev S600000x32 : Shape := ⟨2, ![600000, 32]⟩
abbrev S500000x32 : Shape := ⟨2, ![500000, 32]⟩
abbrev S1x1 : Shape := ⟨2, ![1, 1]⟩
abbrev S6000x1 : Shape := ⟨2, ![6000, 1]⟩

abbrev nBuf : Space → Nat
  | .hbm => 179
  | .vmem => 39
  | .smem => 0
  | _ => 0

abbrev hbmTy0_0 (i : Nat) : BufTy := match i % 128 with
  | 0 => ⟨S300000x128, .f32⟩
  | 1 => ⟨S150000x64, .f32⟩
  | 2 => ⟨S2x600000, .i32⟩
  | 3 => ⟨S2x500000, .i32⟩
  | 4 => ⟨S2x500000, .i32⟩
  | 5 => ⟨S128x32, .f32⟩
  | 6 => ⟨S32, .f32⟩
  | 7 => ⟨S128x32, .f32⟩
  | 8 => ⟨S64x32, .f32⟩
  | 9 => ⟨S32, .f32⟩
  | 10 => ⟨S128x32, .f32⟩
  | 11 => ⟨S128x32, .f32⟩
  | 12 => ⟨S32, .f32⟩
  | 13 => ⟨S64x32, .f32⟩
  | 14 => ⟨S32x32, .f32⟩
  | 15 => ⟨S32, .f32⟩
  | 16 => ⟨S32x32, .f32⟩
  | 17 => ⟨S32x32, .f32⟩
  | 18 => ⟨S32, .f32⟩
  | 19 => ⟨S32x32, .f32⟩
  | 20 => ⟨S32x32, .f32⟩
  | 21 => ⟨S32, .f32⟩
  | 22 => ⟨S32x32, .f32⟩
  | 23 => ⟨S32x1, .f32⟩
  | 24 => ⟨S1, .f32⟩
  | 25 => ⟨S1x600000, .i32⟩
  | 26 => ⟨S600000, .i32⟩
  | 27 => ⟨S1x600000, .i32⟩
  | 28 => ⟨S600000, .i32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S300000x128, .f32⟩
  | 40 => ⟨S600000x1, .i32⟩
  | 41 => ⟨S300000x128, .f32⟩
  | 42 => ⟨S_, .f32⟩
  | 43 => ⟨S600000, .f32⟩
  | 44 => ⟨S_, .f32⟩
  | 45 => ⟨S300000, .f32⟩
  | 46 => ⟨S600000x1, .i32⟩
  | 47 => ⟨S300000, .f32⟩
  | 48 => ⟨S_, .f32⟩
  | 49 => ⟨S300000, .f32⟩
  | 50 => ⟨S300000, .f32⟩
  | 51 => ⟨S300000x1, .f32⟩
  | 52 => ⟨S300000x128, .f32⟩
  | 53 => ⟨S300000x128, .f32⟩
  | 54 => ⟨S1x500000, .i32⟩
  | 55 => ⟨S500000, .i32⟩
  | 56 => ⟨S1x500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x64, .f32⟩
  | 67 => ⟨S_, .f32⟩
  | 68 => ⟨S300000x64, .f32⟩
  | 69 => ⟨S500000x1, .i32⟩
  | 70 => ⟨S300000x64, .f32⟩
  | 71 => ⟨S_, .f32⟩
  | 72 => ⟨S500000, .f32⟩
  | 73 => ⟨S_, .f32⟩
  | 74 => ⟨S300000, .f32⟩
  | 75 => ⟨S500000x1, .i32⟩
  | 76 => ⟨S300000, .f32⟩
  | 77 => ⟨S_, .f32⟩
  | 78 => ⟨S300000, .f32⟩
  | 79 => ⟨S300000, .f32⟩
  | 80 => ⟨S300000x1, .f32⟩
  | 81 => ⟨S300000x64, .f32⟩
  | 82 => ⟨S300000x64, .f32⟩
  | 83 => ⟨S1x500000, .i32⟩
  | 84 => ⟨S500000, .i32⟩
  | 85 => ⟨S1x500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .f32⟩
  | 97 => ⟨S150000x128, .f32⟩
  | 98 => ⟨S500000x1, .i32⟩
  | 99 => ⟨S150000x128, .f32⟩
  | 100 => ⟨S_, .f32⟩
  | 101 => ⟨S500000, .f32⟩
  | 102 => ⟨S_, .f32⟩
  | 103 => ⟨S150000, .f32⟩
  | 104 => ⟨S500000x1, .i32⟩
  | 105 => ⟨S150000, .f32⟩
  | 106 => ⟨S_, .f32⟩
  | 107 => ⟨S150000, .f32⟩
  | 108 => ⟨S150000, .f32⟩
  | 109 => ⟨S150000x1, .f32⟩
  | 110 => ⟨S150000x128, .f32⟩
  | 111 => ⟨S150000x128, .f32⟩
  | 112 => ⟨S1x32, .f32⟩
  | 113 => ⟨S1x32, .f32⟩
  | 114 => ⟨S300000x32, .f32⟩
  | 115 => ⟨S1x32, .f32⟩
  | 116 => ⟨S150000x32, .f32⟩
  | 117 => ⟨S1x600000, .i32⟩
  | 118 => ⟨S600000, .i32⟩
  | 119 => ⟨S1x600000, .i32⟩
  | 120 => ⟨S600000, .i32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S300000x128, .f32⟩

abbrev hbmTy0_1 (i : Nat) : BufTy := match i % 128 with
  | 0 => ⟨S600000x1, .i32⟩
  | 1 => ⟨S600000x32, .f32⟩
  | 2 => ⟨S_, .f32⟩
  | 3 => ⟨S300000x32, .f32⟩
  | 4 => ⟨S600000x1, .i32⟩
  | 5 => ⟨S300000x32, .f32⟩
  | 6 => ⟨S_, .f32⟩
  | 7 => ⟨S600000, .f32⟩
  | 8 => ⟨S_, .f32⟩
  | 9 => ⟨S300000, .f32⟩
  | 10 => ⟨S600000x1, .i32⟩
  | 11 => ⟨S300000, .f32⟩
  | 12 => ⟨S_, .f32⟩
  | 13 => ⟨S300000, .f32⟩
  | 14 => ⟨S300000, .f32⟩
  | 15 => ⟨S300000x1, .f32⟩
  | 16 => ⟨S300000x32, .f32⟩
  | 17 => ⟨S300000x32, .f32⟩
  | 18 => ⟨S1x500000, .i32⟩
  | 19 => ⟨S500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x32, .f32⟩
  | 31 => ⟨S_, .f32⟩
  | 32 => ⟨S300000x32, .f32⟩
  | 33 => ⟨S500000x1, .i32⟩
  | 34 => ⟨S300000x32, .f32⟩
  | 35 => ⟨S_, .f32⟩
  | 36 => ⟨S500000, .f32⟩
  | 37 => ⟨S_, .f32⟩
  | 38 => ⟨S300000, .f32⟩
  | 39 => ⟨S500000x1, .i32⟩
  | 40 => ⟨S300000, .f32⟩
  | 41 => ⟨S_, .f32⟩
  | 42 => ⟨S300000, .f32⟩
  | 43 => ⟨S300000, .f32⟩
  | 44 => ⟨S300000x1, .f32⟩
  | 45 => ⟨S300000x32, .f32⟩
  | 46 => ⟨S300000x32, .f32⟩
  | 47 => ⟨S1x32, .f32⟩
  | 48 => ⟨S1x32, .f32⟩
  | 49 => ⟨S1x1, .f32⟩
  | 50 => ⟨S300000x1, .f32⟩
  | _ => ⟨S300000x128, .f32⟩

abbrev hbmTy (i : Nat) : BufTy := match i / 128 with
  | 0 => hbmTy0_0 i
  | 1 => hbmTy0_1 i
  | _ => ⟨S300000x128, .f32⟩

abbrev bufTy : (tb : Table) → Fin (tcTables nBuf tb) → BufTy
  | .hbm, ⟨i, _⟩ => hbmTy i
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x64, .f32⟩
  | .local _ .vmem, ⟨5, _⟩ => ⟨S6000x64, .f32⟩
  | .local _ .vmem, ⟨6, _⟩ => ⟨S128x32, .f32⟩
  | .local _ .vmem, ⟨7, _⟩ => ⟨S1x32, .f32⟩
  | .local _ .vmem, ⟨8, _⟩ => ⟨S128x32, .f32⟩
  | .local _ .vmem, ⟨9, _⟩ => ⟨S64x32, .f32⟩
  | .local _ .vmem, ⟨10, _⟩ => ⟨S1x32, .f32⟩
  | .local _ .vmem, ⟨11, _⟩ => ⟨S128x32, .f32⟩
  | .local _ .vmem, ⟨12, _⟩ => ⟨S6000x32, .f32⟩
  | .local _ .vmem, ⟨13, _⟩ => ⟨S6000x32, .f32⟩
  | .local _ .vmem, ⟨14, _⟩ => ⟨S6000x128, .f32⟩
  | .local _ .vmem, ⟨15, _⟩ => ⟨S6000x128, .f32⟩
  | .local _ .vmem, ⟨16, _⟩ => ⟨S6000x64, .f32⟩
  | .local _ .vmem, ⟨17, _⟩ => ⟨S6000x64, .f32⟩
  | .local _ .vmem, ⟨18, _⟩ => ⟨S128x32, .f32⟩
  | .local _ .vmem, ⟨19, _⟩ => ⟨S1x32, .f32⟩
  | .local _ .vmem, ⟨20, _⟩ => ⟨S64x32, .f32⟩
  | .local _ .vmem, ⟨21, _⟩ => ⟨S6000x32, .f32⟩
  | .local _ .vmem, ⟨22, _⟩ => ⟨S6000x32, .f32⟩
  | .local _ .vmem, ⟨23, _⟩ => ⟨S6000x32, .f32⟩
  | .local _ .vmem, ⟨24, _⟩ => ⟨S6000x32, .f32⟩
  | .local _ .vmem, ⟨25, _⟩ => ⟨S6000x32, .f32⟩
  | .local _ .vmem, ⟨26, _⟩ => ⟨S6000x32, .f32⟩
  | .local _ .vmem, ⟨27, _⟩ => ⟨S6000x32, .f32⟩
  | .local _ .vmem, ⟨28, _⟩ => ⟨S6000x32, .f32⟩
  | .local _ .vmem, ⟨29, _⟩ => ⟨S32x32, .f32⟩
  | .local _ .vmem, ⟨30, _⟩ => ⟨S1x32, .f32⟩
  | .local _ .vmem, ⟨31, _⟩ => ⟨S32x32, .f32⟩
  | .local _ .vmem, ⟨32, _⟩ => ⟨S32x32, .f32⟩
  | .local _ .vmem, ⟨33, _⟩ => ⟨S1x32, .f32⟩
  | .local _ .vmem, ⟨34, _⟩ => ⟨S32x32, .f32⟩
  | .local _ .vmem, ⟨35, _⟩ => ⟨S32x1, .f32⟩
  | .local _ .vmem, ⟨36, _⟩ => ⟨S1x1, .f32⟩
  | .local _ .vmem, ⟨37, _⟩ => ⟨S6000x1, .f32⟩
  | .local _ .vmem, ⟨38, _⟩ => ⟨S6000x1, .f32⟩
  | _, _ => ⟨S300000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_c_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_cst_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_15 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_16 : Ref sig .tc := ⟨.hbm, 121, rfl⟩
abbrev main_v78 : Ref sig .tc := ⟨.hbm, 122, rfl⟩
abbrev main_v79 : Ref sig .tc := ⟨.hbm, 123, rfl⟩
abbrev main_c_17 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_18 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_19 : Ref sig .tc := ⟨.hbm, 134, rfl⟩
abbrev main_v88 : Ref sig .tc := ⟨.hbm, 135, rfl⟩
abbrev main_cst_20 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_21 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_22 : Ref sig .tc := ⟨.hbm, 150, rfl⟩
abbrev main_v101 : Ref sig .tc := ⟨.hbm, 151, rfl⟩
abbrev main_v102 : Ref sig .tc := ⟨.hbm, 152, rfl⟩
abbrev main_c_23 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_24 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_25 : Ref sig .tc := ⟨.hbm, 163, rfl⟩
abbrev main_v111 : Ref sig .tc := ⟨.hbm, 164, rfl⟩
abbrev main_cst_26 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_27 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S6000x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S300000x128 : S_.BroadcastsInDim S300000x128 (![] : Fin 0 → Fin S300000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S300000x64 : S_.BroadcastsInDim S300000x64 (![] : Fin 0 → Fin S300000x64.rank)
  bcast_S300000x1_S300000x64_0_1 : S300000x1.BroadcastsInDim S300000x64 (![0, 1] : Fin 2 → Fin S300000x64.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  shapeCasts_S32_S1x32 : S32.ShapeCasts S1x32
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S128x32_S128x32_0_0 : ∀ a, (![0, 0] : Fin 2 → Nat) a + S128x32.size a ≤ S128x32.size a
  h_S128x32 : 0 < S128x32.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S6000x32_S6000x32_0_0 : ∀ a, (![0, 0] : Fin 2 → Nat) a + S6000x32.size a ≤ S6000x32.size a
  h_S6000x32 : 0 < S6000x32.numel
  bcast_S_S300000x32 : S_.BroadcastsInDim S300000x32 (![] : Fin 0 → Fin S300000x32.rank)
  bcast_S300000x1_S300000x32_0_1 : S300000x1.BroadcastsInDim S300000x32 (![0, 1] : Fin 2 → Fin S300000x32.rank)
  shapeCasts_S1_S1x1 : S1.ShapeCasts S1x1
  shapeCasts_S6000x32_S6000x32 : S6000x32.ShapeCasts S6000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  scatter_S300000_S600000x1_S600000_n_0_0_1_wf : ScatterDims.WF S300000 S600000x1 S600000 [] [0] [0] 1
  gather_S150000x64_S500000x1_S500000x64_1_0_n_n_0_1_164_wf : GatherDims.WF S150000x64 S500000x1 S500000x64 [1] [0] [] [0] [] 1 ![1, 64]
  scatter_S300000x64_S500000x1_S500000x64_1_0_0_1_wf : ScatterDims.WF S300000x64 S500000x1 S500000x64 [1] [0] [0] 1
  scatter_S300000_S500000x1_S500000_n_0_0_1_wf : ScatterDims.WF S300000 S500000x1 S500000 [] [0] [0] 1
  gather_S300000x128_S500000x1_S500000x128_1_0_n_n_0_1_1128_wf : GatherDims.WF S300000x128 S500000x1 S500000x128 [1] [0] [] [0] [] 1 ![1, 128]
  scatter_S150000x128_S500000x1_S500000x128_1_0_0_1_wf : ScatterDims.WF S150000x128 S500000x1 S500000x128 [1] [0] [0] 1
  scatter_S150000_S500000x1_S500000_n_0_0_1_wf : ScatterDims.WF S150000 S500000x1 S500000 [] [0] [0] 1
  dot_S6000x128_S128x32_S6000x32_1_0_0_1_n_n_wf : DotDims.WF S6000x128 S128x32 S6000x32 [1] [0] [0] [1] [] []
  dot_S6000x64_S64x32_S6000x32_1_0_0_1_n_n_wf : DotDims.WF S6000x64 S64x32 S6000x32 [1] [0] [0] [1] [] []
  gather_S300000x32_S600000x1_S600000x32_1_0_n_n_0_1_132_wf : GatherDims.WF S300000x32 S600000x1 S600000x32 [1] [0] [] [0] [] 1 ![1, 32]
  scatter_S300000x32_S600000x1_S600000x32_1_0_0_1_wf : ScatterDims.WF S300000x32 S600000x1 S600000x32 [1] [0] [0] 1
  gather_S150000x32_S500000x1_S500000x32_1_0_n_n_0_1_132_wf : GatherDims.WF S150000x32 S500000x1 S500000x32 [1] [0] [] [0] [] 1 ![1, 32]
  scatter_S300000x32_S500000x1_S500000x32_1_0_0_1_wf : ScatterDims.WF S300000x32 S500000x1 S500000x32 [1] [0] [0] 1
  dot_S6000x32_S32x32_S6000x32_1_0_0_1_n_n_wf : DotDims.WF S6000x32 S32x32 S6000x32 [1] [0] [0] [1] [] []
  dot_S6000x32_S32x1_S6000x1_1_0_0_1_n_n_wf : DotDims.WF S6000x32 S32x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S300000x128.size a
  hwx0_0 : ∀ i : grid0.Coords, EltTy.bits .f32 = 32 ∨ (Rect.block (s := S300000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S300000x128.size a
  hwx0_1 : ∀ i : grid0.Coords, EltTy.bits .f32 = 32 ∨ (Rect.block (s := S300000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S300000x64.size a
  hwx0_2 : ∀ i : grid0.Coords, EltTy.bits .f32 = 32 ∨ (Rect.block (s := S300000x64) S6000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .f32 = 32 ∨ (Rect.block (s := S128x32) S128x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x32.size a ≤ S300000x32.size a
  hwx0_9 : ∀ i : grid0.Coords, EltTy.bits .f32 = 32 ∨ (Rect.block (s := S300000x32) S6000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S150000x128.size a
  hwx1_0 : ∀ i : grid1.Coords, EltTy.bits .f32 = 32 ∨ (Rect.block (s := S150000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x32.size a ≤ S150000x32.size a
  hwx1_5 : ∀ i : grid1.Coords, EltTy.bits .f32 = 32 ∨ (Rect.block (s := S150000x32) S6000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S300000x32.size a
  hwx2_0 : ∀ i : grid2.Coords, EltTy.bits .f32 = 32 ∨ (Rect.block (s := S300000x32) S6000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x32.size a ≤ S300000x32.size a
  hwx2_1 : ∀ i : grid2.Coords, EltTy.bits .f32 = 32 ∨ (Rect.block (s := S300000x32) S6000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x32.size a ≤ S300000x32.size a
  hwx2_2 : ∀ i : grid2.Coords, EltTy.bits .f32 = 32 ∨ (Rect.block (s := S300000x32) S6000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x1.size a ≤ S32x1.size a
  hwx2_9 : ∀ i : grid2.Coords, EltTy.bits .f32 = 32 ∨ (Rect.block (s := S32x1) S32x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S6000x1.size a ≤ S300000x1.size a
  hwx2_11 : ∀ i : grid2.Coords, EltTy.bits .f32 = 32 ∨ (Rect.block (s := S300000x1) S6000x1.size (cc2_transform_11 i) (hinb2_11 i)).WholeWords (EltTy.packing .f32)

variable [Facts₀]

def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def gather_S150000x64_S500000x1_S500000x64_1_0_n_n_0_1_164 : GatherDims S150000x64 S500000x1 S500000x64 where
  offsetDims := [1]
  collapsedSliceDims := [0]
  operandBatchingDims := []
  startIndicesBatchingDims := []
  startIndexMap := [0]
  indexVectorDim := 1
  sliceSizes := ![1, 64]
  wf := gather_S150000x64_S500000x1_S500000x64_1_0_n_n_0_1_164_wf
def scatter_S300000x64_S500000x1_S500000x64_1_0_0_1 : ScatterDims S300000x64 S500000x1 S500000x64 where
  updateWindowDims := [1]
  insertedWindowDims := [0]
  scatterDimsToOperandDims := [0]
  indexVectorDim := 1
  wf := scatter_S300000x64_S500000x1_S500000x64_1_0_0_1_wf
def scatter_S300000_S500000x1_S500000_n_0_0_1 : ScatterDims S300000 S500000x1 S500000 where
  updateWindowDims := []
  insertedWindowDims := [0]
  scatterDimsToOperandDims := [0]
  indexVectorDim := 1
  wf := scatter_S300000_S500000x1_S500000_n_0_0_1_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S150000x128_S500000x1_S500000x128_1_0_0_1 : ScatterDims S150000x128 S500000x1 S500000x128 where
  updateWindowDims := [1]
  insertedWindowDims := [0]
  scatterDimsToOperandDims := [0]
  indexVectorDim := 1
  wf := scatter_S150000x128_S500000x1_S500000x128_1_0_0_1_wf
def scatter_S150000_S500000x1_S500000_n_0_0_1 : ScatterDims S150000 S500000x1 S500000 where
  updateWindowDims := []
  insertedWindowDims := [0]
  scatterDimsToOperandDims := [0]
  indexVectorDim := 1
  wf := scatter_S150000_S500000x1_S500000_n_0_0_1_wf
def dot_S6000x128_S128x32_S6000x32_1_0_0_1_n_n : DotDims S6000x128 S128x32 S6000x32 where
  lhsContracting := [1]
  rhsContracting := [0]
  lhsNonContracting := [0]
  rhsNonContracting := [1]
  lhsBatch := []
  rhsBatch := []
  wf := dot_S6000x128_S128x32_S6000x32_1_0_0_1_n_n_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def gather_S300000x32_S600000x1_S600000x32_1_0_n_n_0_1_132 : GatherDims S300000x32 S600000x1 S600000x32 where
  offsetDims := [1]
  collapsedSliceDims := [0]
  operandBatchingDims := []
  startIndicesBatchingDims := []
  startIndexMap := [0]
  indexVectorDim := 1
  sliceSizes := ![1, 32]
  wf := gather_S300000x32_S600000x1_S600000x32_1_0_n_n_0_1_132_wf
def scatter_S300000x32_S600000x1_S600000x32_1_0_0_1 : ScatterDims S300000x32 S600000x1 S600000x32 where
  updateWindowDims := [1]
  insertedWindowDims := [0]
  scatterDimsToOperandDims := [0]
  indexVectorDim := 1
  wf := scatter_S300000x32_S600000x1_S600000x32_1_0_0_1_wf
def gather_S150000x32_S500000x1_S500000x32_1_0_n_n_0_1_132 : GatherDims S150000x32 S500000x1 S500000x32 where
  offsetDims := [1]
  collapsedSliceDims := [0]
  operandBatchingDims := []
  startIndicesBatchingDims := []
  startIndexMap := [0]
  indexVectorDim := 1
  sliceSizes := ![1, 32]
  wf := gather_S150000x32_S500000x1_S500000x32_1_0_n_n_0_1_132_wf
def scatter_S300000x32_S500000x1_S500000x32_1_0_0_1 : ScatterDims S300000x32 S500000x1 S500000x32 where
  updateWindowDims := [1]
  insertedWindowDims := [0]
  scatterDimsToOperandDims := [0]
  indexVectorDim := 1
  wf := scatter_S300000x32_S500000x1_S500000x32_1_0_0_1_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x32_S32x1_S6000x1_1_0_0_1_n_n : DotDims S6000x32 S32x1 S6000x1 where
  lhsContracting := [1]
  rhsContracting := [0]
  lhsNonContracting := [0]
  rhsNonContracting := [1]
  lhsBatch := []
  rhsBatch := []
  wf := dot_S6000x32_S32x1_S6000x1_1_0_0_1_n_n_wf

abbrev win0_0 : Pipeline.Window sig grid0 :=
  Pipeline.Window.ofSpec (Memref.whole main_v22) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v70) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v71) S6000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v68) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v73) S6000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v96) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S6000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v119) S6000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v120) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v121) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg23) S32x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v122) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v123) S6000x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S300000x128 : Shape := ⟨2, ![300000, 128]⟩
abbrev S150000x64 : Shape := ⟨2, ![150000, 64]⟩
abbrev S2x600000 : Shape := ⟨2, ![2, 600000]⟩
abbrev S2x500000 : Shape := ⟨2, ![2, 500000]⟩
abbrev S128x32 : Shape := ⟨2, ![128, 32]⟩
abbrev S32 : Shape := ⟨1, ![32]⟩
abbrev S64x32 : Shape := ⟨2, ![64, 32]⟩
abbrev S32x32 : Shape := ⟨2, ![32, 32]⟩
abbrev S32x1 : Shape := ⟨2, ![32, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S300000 : Shape := ⟨1, ![300000]⟩
abbrev S300000x1 : Shape := ⟨2, ![300000, 1]⟩
abbrev S300000x32 : Shape := ⟨2, ![300000, 32]⟩
abbrev S1x32 : Shape := ⟨2, ![1, 32]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S300000x64 : Shape := ⟨2, ![300000, 64]⟩
abbrev S500000x128 : Shape := ⟨2, ![500000, 128]⟩
abbrev S150000x128 : Shape := ⟨2, ![150000, 128]⟩
abbrev S150000 : Shape := ⟨1, ![150000]⟩
abbrev S150000x1 : Shape := ⟨2, ![150000, 1]⟩
abbrev S150000x32 : Shape := ⟨2, ![150000, 32]⟩
abbrev S600000x32 : Shape := ⟨2, ![600000, 32]⟩
abbrev S500000x32 : Shape := ⟨2, ![500000, 32]⟩
abbrev S1x1 : Shape := ⟨2, ![1, 1]⟩

abbrev nBuf : Space → Nat
  | .hbm => 222
  | .vmem => 0
  | .smem => 0
  | _ => 0

abbrev hbmTy0_0 (i : Nat) : BufTy := match i % 128 with
  | 0 => ⟨S300000x128, .f32⟩
  | 1 => ⟨S150000x64, .f32⟩
  | 2 => ⟨S2x600000, .i32⟩
  | 3 => ⟨S2x500000, .i32⟩
  | 4 => ⟨S2x500000, .i32⟩
  | 5 => ⟨S128x32, .f32⟩
  | 6 => ⟨S32, .f32⟩
  | 7 => ⟨S128x32, .f32⟩
  | 8 => ⟨S64x32, .f32⟩
  | 9 => ⟨S32, .f32⟩
  | 10 => ⟨S128x32, .f32⟩
  | 11 => ⟨S128x32, .f32⟩
  | 12 => ⟨S32, .f32⟩
  | 13 => ⟨S64x32, .f32⟩
  | 14 => ⟨S32x32, .f32⟩
  | 15 => ⟨S32, .f32⟩
  | 16 => ⟨S32x32, .f32⟩
  | 17 => ⟨S32x32, .f32⟩
  | 18 => ⟨S32, .f32⟩
  | 19 => ⟨S32x32, .f32⟩
  | 20 => ⟨S32x32, .f32⟩
  | 21 => ⟨S32, .f32⟩
  | 22 => ⟨S32x32, .f32⟩
  | 23 => ⟨S32x1, .f32⟩
  | 24 => ⟨S1, .f32⟩
  | 25 => ⟨S1x600000, .i32⟩
  | 26 => ⟨S600000, .i32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S1x600000, .i32⟩
  | 37 => ⟨S600000, .i32⟩
  | 38 => ⟨S_, .f32⟩
  | 39 => ⟨S300000x128, .f32⟩
  | 40 => ⟨S600000x1, .i32⟩
  | 41 => ⟨S300000x128, .f32⟩
  | 42 => ⟨S_, .f32⟩
  | 43 => ⟨S600000, .f32⟩
  | 44 => ⟨S1x600000, .i32⟩
  | 45 => ⟨S600000, .i32⟩
  | 46 => ⟨S_, .f32⟩
  | 47 => ⟨S300000, .f32⟩
  | 48 => ⟨S600000x1, .i32⟩
  | 49 => ⟨S300000, .f32⟩
  | 50 => ⟨S_, .f32⟩
  | 51 => ⟨S300000, .f32⟩
  | 52 => ⟨S300000, .f32⟩
  | 53 => ⟨S300000x1, .f32⟩
  | 54 => ⟨S300000x128, .f32⟩
  | 55 => ⟨S300000x128, .f32⟩
  | 56 => ⟨S300000x32, .f32⟩
  | 57 => ⟨S1x32, .f32⟩
  | 58 => ⟨S300000x32, .f32⟩
  | 59 => ⟨S300000x32, .f32⟩
  | 60 => ⟨S300000x32, .f32⟩
  | 61 => ⟨S300000x32, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S1x500000, .i32⟩
  | 74 => ⟨S500000, .i32⟩
  | 75 => ⟨S_, .f32⟩
  | 76 => ⟨S300000x64, .f32⟩
  | 77 => ⟨S500000x1, .i32⟩
  | 78 => ⟨S300000x64, .f32⟩
  | 79 => ⟨S_, .f32⟩
  | 80 => ⟨S500000, .f32⟩
  | 81 => ⟨S1x500000, .i32⟩
  | 82 => ⟨S500000, .i32⟩
  | 83 => ⟨S_, .f32⟩
  | 84 => ⟨S300000, .f32⟩
  | 85 => ⟨S500000x1, .i32⟩
  | 86 => ⟨S300000, .f32⟩
  | 87 => ⟨S_, .f32⟩
  | 88 => ⟨S300000, .f32⟩
  | 89 => ⟨S300000, .f32⟩
  | 90 => ⟨S300000x1, .f32⟩
  | 91 => ⟨S300000x64, .f32⟩
  | 92 => ⟨S300000x64, .f32⟩
  | 93 => ⟨S300000x32, .f32⟩
  | 94 => ⟨S1x32, .f32⟩
  | 95 => ⟨S300000x32, .f32⟩
  | 96 => ⟨S300000x32, .f32⟩
  | 97 => ⟨S300000x32, .f32⟩
  | 98 => ⟨S300000x32, .f32⟩
  | 99 => ⟨S300000x32, .f32⟩
  | 100 => ⟨S1x500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S1x500000, .i32⟩
  | 112 => ⟨S500000, .i32⟩
  | 113 => ⟨S_, .f32⟩
  | 114 => ⟨S150000x128, .f32⟩
  | 115 => ⟨S500000x1, .i32⟩
  | 116 => ⟨S150000x128, .f32⟩
  | 117 => ⟨S_, .f32⟩
  | 118 => ⟨S500000, .f32⟩
  | 119 => ⟨S1x500000, .i32⟩
  | 120 => ⟨S500000, .i32⟩
  | 121 => ⟨S_, .f32⟩
  | 122 => ⟨S150000, .f32⟩
  | 123 => ⟨S500000x1, .i32⟩
  | 124 => ⟨S150000, .f32⟩
  | 125 => ⟨S_, .f32⟩
  | 126 => ⟨S150000, .f32⟩
  | 127 => ⟨S150000, .f32⟩
  | _ => ⟨S300000x128, .f32⟩

abbrev hbmTy0_1 (i : Nat) : BufTy := match i % 128 with
  | 0 => ⟨S150000x1, .f32⟩
  | 1 => ⟨S150000x128, .f32⟩
  | 2 => ⟨S150000x128, .f32⟩
  | 3 => ⟨S150000x32, .f32⟩
  | 4 => ⟨S1x32, .f32⟩
  | 5 => ⟨S150000x32, .f32⟩
  | 6 => ⟨S150000x32, .f32⟩
  | 7 => ⟨S150000x32, .f32⟩
  | 8 => ⟨S150000x32, .f32⟩
  | 9 => ⟨S_, .f32⟩
  | 10 => ⟨S300000x32, .f32⟩
  | 11 => ⟨S300000x32, .f32⟩
  | 12 => ⟨S_, .f32⟩
  | 13 => ⟨S150000x32, .f32⟩
  | 14 => ⟨S150000x32, .f32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x32, .f32⟩
  | 26 => ⟨S1x600000, .i32⟩
  | 27 => ⟨S600000, .i32⟩
  | 28 => ⟨S_, .f32⟩
  | 29 => ⟨S300000x32, .f32⟩
  | 30 => ⟨S600000x1, .i32⟩
  | 31 => ⟨S300000x32, .f32⟩
  | 32 => ⟨S_, .f32⟩
  | 33 => ⟨S600000, .f32⟩
  | 34 => ⟨S1x600000, .i32⟩
  | 35 => ⟨S600000, .i32⟩
  | 36 => ⟨S_, .f32⟩
  | 37 => ⟨S300000, .f32⟩
  | 38 => ⟨S600000x1, .i32⟩
  | 39 => ⟨S300000, .f32⟩
  | 40 => ⟨S_, .f32⟩
  | 41 => ⟨S300000, .f32⟩
  | 42 => ⟨S300000, .f32⟩
  | 43 => ⟨S300000x1, .f32⟩
  | 44 => ⟨S300000x32, .f32⟩
  | 45 => ⟨S300000x32, .f32⟩
  | 46 => ⟨S300000x32, .f32⟩
  | 47 => ⟨S1x32, .f32⟩
  | 48 => ⟨S300000x32, .f32⟩
  | 49 => ⟨S300000x32, .f32⟩
  | 50 => ⟨S300000x32, .f32⟩
  | 51 => ⟨S300000x32, .f32⟩
  | 52 => ⟨S1x500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x32, .f32⟩
  | 63 => ⟨S1x500000, .i32⟩
  | 64 => ⟨S500000, .i32⟩
  | 65 => ⟨S_, .f32⟩
  | 66 => ⟨S300000x32, .f32⟩
  | 67 => ⟨S500000x1, .i32⟩
  | 68 => ⟨S300000x32, .f32⟩
  | 69 => ⟨S_, .f32⟩
  | 70 => ⟨S500000, .f32⟩
  | 71 => ⟨S1x500000, .i32⟩
  | 72 => ⟨S500000, .i32⟩
  | 73 => ⟨S_, .f32⟩
  | 74 => ⟨S300000, .f32⟩
  | 75 => ⟨S500000x1, .i32⟩
  | 76 => ⟨S300000, .f32⟩
  | 77 => ⟨S_, .f32⟩
  | 78 => ⟨S300000, .f32⟩
  | 79 => ⟨S300000, .f32⟩
  | 80 => ⟨S300000x1, .f32⟩
  | 81 => ⟨S300000x32, .f32⟩
  | 82 => ⟨S300000x32, .f32⟩
  | 83 => ⟨S300000x32, .f32⟩
  | 84 => ⟨S1x32, .f32⟩
  | 85 => ⟨S300000x32, .f32⟩
  | 86 => ⟨S300000x32, .f32⟩
  | 87 => ⟨S300000x32, .f32⟩
  | 88 => ⟨S300000x32, .f32⟩
  | 89 => ⟨S300000x32, .f32⟩
  | 90 => ⟨S300000x1, .f32⟩
  | 91 => ⟨S1x1, .f32⟩
  | 92 => ⟨S300000x1, .f32⟩
  | 93 => ⟨S300000x1, .f32⟩
  | _ => ⟨S300000x128, .f32⟩

abbrev hbmTy (i : Nat) : BufTy := match i / 128 with
  | 0 => hbmTy0_0 i
  | 1 => hbmTy0_1 i
  | _ => ⟨S300000x128, .f32⟩

abbrev bufTy : (tb : Table) → Fin (tcTables nBuf tb) → BufTy
  | .hbm, ⟨i, _⟩ => hbmTy i
  | _, _ => ⟨S300000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_c : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_6 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_10 : Ref sig .tc := ⟨.hbm, 102, rfl⟩
abbrev main_v65 : Ref sig .tc := ⟨.hbm, 103, rfl⟩
abbrev main_v66 : Ref sig .tc := ⟨.hbm, 104, rfl⟩
abbrev main_c_11 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_12 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_14 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call0_cst : Ref sig .tc := ⟨.hbm, 137, rfl⟩
abbrev main_call0_v0 : Ref sig .tc := ⟨.hbm, 138, rfl⟩
abbrev main_v94 : Ref sig .tc := ⟨.hbm, 139, rfl⟩
abbrev main_call1_cst : Ref sig .tc := ⟨.hbm, 140, rfl⟩
abbrev main_call1_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_16 : Ref sig .tc := ⟨.hbm, 145, rfl⟩
abbrev main_v98 : Ref sig .tc := ⟨.hbm, 146, rfl⟩
abbrev main_v99 : Ref sig .tc := ⟨.hbm, 147, rfl⟩
abbrev main_c_17 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_18 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_19 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_20 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_21 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_c_22 : Ref sig .tc := ⟨.hbm, 182, rfl⟩
abbrev main_v129 : Ref sig .tc := ⟨.hbm, 183, rfl⟩
abbrev main_v130 : Ref sig .tc := ⟨.hbm, 184, rfl⟩
abbrev main_c_23 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_24 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_25 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_26 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_27 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S300000x128 : S_.BroadcastsInDim S300000x128 (![] : Fin 0 → Fin S300000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S300000x64 : S_.BroadcastsInDim S300000x64 (![] : Fin 0 → Fin S300000x64.rank)
  bcast_S300000x1_S300000x64_0_1 : S300000x1.BroadcastsInDim S300000x64 (![0, 1] : Fin 2 → Fin S300000x64.rank)
  bcast_S_S150000x128 : S_.BroadcastsInDim S150000x128 (![] : Fin 0 → Fin S150000x128.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  bcast_S1x32_S150000x32_0_1 : S1x32.BroadcastsInDim S150000x32 (![0, 1] : Fin 2 → Fin S150000x32.rank)
  bcast_S_S300000x32 : S_.BroadcastsInDim S300000x32 (![] : Fin 0 → Fin S300000x32.rank)
  bcast_S_S150000x32 : S_.BroadcastsInDim S150000x32 (![] : Fin 0 → Fin S150000x32.rank)
  bcast_S300000x1_S300000x32_0_1 : S300000x1.BroadcastsInDim S300000x32 (![0, 1] : Fin 2 → Fin S300000x32.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  gather_S300000x128_S600000x1_S600000x128_1_0_n_n_0_1_1128_wf : GatherDims.WF S300000x128 S600000x1 S600000x128 [1] [0] [] [0] [] 1 ![1, 128]
  scatter_S300000x128_S600000x1_S600000x128_1_0_0_1_wf : ScatterDims.WF S300000x128 S600000x1 S600000x128 [1] [0] [0] 1
  scatter_S300000_S600000x1_S600000_n_0_0_1_wf : ScatterDims.WF S300000 S600000x1 S600000 [] [0] [0] 1
  dot_S300000x128_S128x32_S300000x32_1_0_0_1_n_n_wf : DotDims.WF S300000x128 S128x32 S300000x32 [1] [0] [0] [1] [] []
  gather_S150000x64_S500000x1_S500000x64_1_0_n_n_0_1_164_wf : GatherDims.WF S150000x64 S500000x1 S500000x64 [1] [0] [] [0] [] 1 ![1, 64]
  scatter_S300000x64_S500000x1_S500000x64_1_0_0_1_wf : ScatterDims.WF S300000x64 S500000x1 S500000x64 [1] [0] [0] 1
  scatter_S300000_S500000x1_S500000_n_0_0_1_wf : ScatterDims.WF S300000 S500000x1 S500000 [] [0] [0] 1
  dot_S300000x64_S64x32_S300000x32_1_0_0_1_n_n_wf : DotDims.WF S300000x64 S64x32 S300000x32 [1] [0] [0] [1] [] []
  gather_S300000x128_S500000x1_S500000x128_1_0_n_n_0_1_1128_wf : GatherDims.WF S300000x128 S500000x1 S500000x128 [1] [0] [] [0] [] 1 ![1, 128]
  scatter_S150000x128_S500000x1_S500000x128_1_0_0_1_wf : ScatterDims.WF S150000x128 S500000x1 S500000x128 [1] [0] [0] 1
  scatter_S150000_S500000x1_S500000_n_0_0_1_wf : ScatterDims.WF S150000 S500000x1 S500000 [] [0] [0] 1
  dot_S150000x128_S128x32_S150000x32_1_0_0_1_n_n_wf : DotDims.WF S150000x128 S128x32 S150000x32 [1] [0] [0] [1] [] []
  dot_S150000x64_S64x32_S150000x32_1_0_0_1_n_n_wf : DotDims.WF S150000x64 S64x32 S150000x32 [1] [0] [0] [1] [] []
  gather_S300000x32_S600000x1_S600000x32_1_0_n_n_0_1_132_wf : GatherDims.WF S300000x32 S600000x1 S600000x32 [1] [0] [] [0] [] 1 ![1, 32]
  scatter_S300000x32_S600000x1_S600000x32_1_0_0_1_wf : ScatterDims.WF S300000x32 S600000x1 S600000x32 [1] [0] [0] 1
  dot_S300000x32_S32x32_S300000x32_1_0_0_1_n_n_wf : DotDims.WF S300000x32 S32x32 S300000x32 [1] [0] [0] [1] [] []
  gather_S150000x32_S500000x1_S500000x32_1_0_n_n_0_1_132_wf : GatherDims.WF S150000x32 S500000x1 S500000x32 [1] [0] [] [0] [] 1 ![1, 32]
  scatter_S300000x32_S500000x1_S500000x32_1_0_0_1_wf : ScatterDims.WF S300000x32 S500000x1 S500000x32 [1] [0] [0] 1
  dot_S300000x32_S32x1_S300000x1_1_0_0_1_n_n_wf : DotDims.WF S300000x32 S32x1 S300000x1 [1] [0] [0] [1] [] []

variable [Facts₀]

def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def dot_S300000x128_S128x32_S300000x32_1_0_0_1_n_n : DotDims S300000x128 S128x32 S300000x32 where
  lhsContracting := [1]
  rhsContracting := [0]
  lhsNonContracting := [0]
  rhsNonContracting := [1]
  lhsBatch := []
  rhsBatch := []
  wf := dot_S300000x128_S128x32_S300000x32_1_0_0_1_n_n_wf
def gather_S150000x64_S500000x1_S500000x64_1_0_n_n_0_1_164 : GatherDims S150000x64 S500000x1 S500000x64 where
  offsetDims := [1]
  collapsedSliceDims := [0]
  operandBatchingDims := []
  startIndicesBatchingDims := []
  startIndexMap := [0]
  indexVectorDim := 1
  sliceSizes := ![1, 64]
  wf := gather_S150000x64_S500000x1_S500000x64_1_0_n_n_0_1_164_wf
def scatter_S300000x64_S500000x1_S500000x64_1_0_0_1 : ScatterDims S300000x64 S500000x1 S500000x64 where
  updateWindowDims := [1]
  insertedWindowDims := [0]
  scatterDimsToOperandDims := [0]
  indexVectorDim := 1
  wf := scatter_S300000x64_S500000x1_S500000x64_1_0_0_1_wf
def scatter_S300000_S500000x1_S500000_n_0_0_1 : ScatterDims S300000 S500000x1 S500000 where
  updateWindowDims := []
  insertedWindowDims := [0]
  scatterDimsToOperandDims := [0]
  indexVectorDim := 1
  wf := scatter_S300000_S500000x1_S500000_n_0_0_1_wf
def dot_S300000x64_S64x32_S300000x32_1_0_0_1_n_n : DotDims S300000x64 S64x32 S300000x32 where
  lhsContracting := [1]
  rhsContracting := [0]
  lhsNonContracting := [0]
  rhsNonContracting := [1]
  lhsBatch := []
  rhsBatch := []
  wf := dot_S300000x64_S64x32_S300000x32_1_0_0_1_n_n_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S150000x128_S500000x1_S500000x128_1_0_0_1 : ScatterDims S150000x128 S500000x1 S500000x128 where
  updateWindowDims := [1]
  insertedWindowDims := [0]
  scatterDimsToOperandDims := [0]
  indexVectorDim := 1
  wf := scatter_S150000x128_S500000x1_S500000x128_1_0_0_1_wf
def scatter_S150000_S500000x1_S500000_n_0_0_1 : ScatterDims S150000 S500000x1 S500000 where
  updateWindowDims := []
  insertedWindowDims := [0]
  scatterDimsToOperandDims := [0]
  indexVectorDim := 1
  wf := scatter_S150000_S500000x1_S500000_n_0_0_1_wf
def dot_S150000x128_S128x32_S150000x32_1_0_0_1_n_n : DotDims S150000x128 S128x32 S150000x32 where
  lhsContracting := [1]
  rhsContracting := [0]
  lhsNonContracting := [0]
  rhsNonContracting := [1]
  lhsBatch := []
  rhsBatch := []
  wf := dot_S150000x128_S128x32_S150000x32_1_0_0_1_n_n_wf
def dot_S150000x64_S64x32_S150000x32_1_0_0_1_n_n : DotDims S150000x64 S64x32 S150000x32 where
  lhsContracting := [1]
  rhsContracting := [0]
  lhsNonContracting := [0]
  rhsNonContracting := [1]
  lhsBatch := []
  rhsBatch := []
  wf := dot_S150000x64_S64x32_S150000x32_1_0_0_1_n_n_wf
def gather_S300000x32_S600000x1_S600000x32_1_0_n_n_0_1_132 : GatherDims S300000x32 S600000x1 S600000x32 where
  offsetDims := [1]
  collapsedSliceDims := [0]
  operandBatchingDims := []
  startIndicesBatchingDims := []
  startIndexMap := [0]
  indexVectorDim := 1
  sliceSizes := ![1, 32]
  wf := gather_S300000x32_S600000x1_S600000x32_1_0_n_n_0_1_132_wf
def scatter_S300000x32_S600000x1_S600000x32_1_0_0_1 : ScatterDims S300000x32 S600000x1 S600000x32 where
  updateWindowDims := [1]
  insertedWindowDims := [0]
  scatterDimsToOperandDims := [0]
  indexVectorDim := 1
  wf := scatter_S300000x32_S600000x1_S600000x32_1_0_0_1_wf
def dot_S300000x32_S32x32_S300000x32_1_0_0_1_n_n : DotDims S300000x32 S32x32 S300000x32 where
  lhsContracting := [1]
  rhsContracting := [0]
  lhsNonContracting := [0]
  rhsNonContracting := [1]
  lhsBatch := []
  rhsBatch := []
  wf := dot_S300000x32_S32x32_S300000x32_1_0_0_1_n_n_wf
def gather_S150000x32_S500000x1_S500000x32_1_0_n_n_0_1_132 : GatherDims S150000x32 S500000x1 S500000x32 where
  offsetDims := [1]
  collapsedSliceDims := [0]
  operandBatchingDims := []
  startIndicesBatchingDims := []
  startIndexMap := [0]
  indexVectorDim := 1
  sliceSizes := ![1, 32]
  wf := gather_S150000x32_S500000x1_S500000x32_1_0_n_n_0_1_132_wf
def scatter_S300000x32_S500000x1_S500000x32_1_0_0_1 : ScatterDims S300000x32 S500000x1 S500000x32 where
  updateWindowDims := [1]
  insertedWindowDims := [0]
  scatterDimsToOperandDims := [0]
  indexVectorDim := 1
  wf := scatter_S300000x32_S500000x1_S500000x32_1_0_0_1_wf
def dot_S300000x32_S32x1_S300000x1_1_0_0_1_n_n : DotDims S300000x32 S32x1 S300000x1 where
  lhsContracting := [1]
  rhsContracting := [0]
  lhsNonContracting := [0]
  rhsNonContracting := [1]
  lhsBatch := []
  rhsBatch := []
  wf := dot_S300000x32_S32x1_S300000x1_1_0_0_1_n_n_wf

class Facts : Prop extends Facts₀ where

variable [Facts]
-- ==== Proof.KernelRun.lean ====
/-
  The idealized kernel's run with its result named.

  @main is six segments: a stretch of host operations, the first dense layer over the paper nodes, a one-operation
  stretch, the first dense layer over the author nodes, a third stretch (the second round of neighbourhood means),
  and the second dense layer with the output head. The buffer contents at each boundary are a fold from the launch
  memory (`W0` … `W6`): a stretch applies its operations, a region replaces its arrays by what its write-backs
  leave. Every weakly fair execution terminates without a fault, and in its final state every unscoped buffer holds
  the last fold `W6`; read at the result buffer this names the result, read at an argument it is the launch
  contents.
-/
import proofs.«148805_j24232205484267_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last fold's
    contents and every argument array as launched. -/
theorem run_result : θ_run defs (onTc (τ := τ) (main (F := F))) ⟨m, fun _ => 0, ρ⟩ (fun r => ∀ c : Dev nD,
      r.2.mem ((c.tc : Thread nD τ).loc main_v123) = W6 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v123 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c)⟩)

end Cert.KernelIdeal.RunValue

end
-- ==== Proof.Stretch0.lean ====
/-
  What the first stretch of host operations leaves where the first region starts.

  The stretch computes three neighbourhood means — for each relation, the rows of the source features gathered at
  the edges' sources, summed into the edges' destinations, and divided by the destination's edge count clamped at
  one from below — and lays two bias vectors out as rows. Each is the same composition of host operations of the
  launch contents that the reference computes, so it IS the reference's stage of the same name, by unfolding; a
  bias vector reshaped to a row and the same vector broadcast into a row are the same array, read at an index.
  No argument array is written.
-/
import proofs.«148805_j24232205484267_2_alg».proof.Proof.Gen.KernelIdeal.Frame
import proofs.«148805_j24232205484267_2_alg».proof.Proof.Gen.ReferenceIdeal.Read
import Idealize.ShloMosaic.Lib.StableHlo.Run
import Idealize.ShloMosaic.Lib.ValueLayout

set_option maxRecDepth 16384

noncomputable section

namespace Cert.KernelIdeal.Stretch0

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- A length-32 vector reshaped to a `1 × 32` row is the vector broadcast into that row (the citation relation's bias). -/
theorem bias_row26 (x : S32.Idx → EReal) (h : S32.ShapeCasts S1x32) :
    shapeCast S1x32 x h = Cert.ReferenceIdeal.Read.val_main_v26 (F := Ideal) x := by
  funext j
  obtain ⟨u, q, rfl⟩ : ∃ (u : Fin 1) (q : Fin 32), j = ix2 u q := ⟨j 0, j 1, eq_ix2 j⟩
  rw [shapeCast_a_1a_apply, Cert.ReferenceIdeal.Read.val_main_v26_apply]
  exact congrArg x (funext fun a => Fin.ext (by match a with | ⟨0, _⟩ => rfl))

/-- The same for the authorship relation's bias. -/
theorem bias_row57 (x : S32.Idx → EReal) (h : S32.ShapeCasts S1x32) :
    shapeCast S1x32 x h = Cert.ReferenceIdeal.Read.val_main_v57 (F := Ideal) x := by
  funext j
  obtain ⟨u, q, rfl⟩ : ∃ (u : Fin 1) (q : Fin 32), j = ix2 u q := ⟨j 0, j 1, eq_ix2 j⟩
  rw [shapeCast_a_1a_apply, Cert.ReferenceIdeal.Read.val_main_v57_apply]
  exact congrArg x (funext fun a => Fin.ext (by match a with | ⟨0, _⟩ => rfl))

/-- The citation mean at the first region's entry is the reference's citation mean of the launch contents. -/
theorem mean_cites : (W1 m ρ c (Proc.devRef .tc main_v22) : S300000x128.Idx → EReal)
    = Cert.ReferenceIdeal.Read.val_main_v24 (F := Ideal) (m ((c : Thread nD τ).loc main_arg0)) (m ((c : Thread nD τ).loc main_arg2)) := by
  show StableHlo.after hostOps0 (W0 m ρ c) (Proc.devRef .tc main_v22) = _
  after_results_simp
  rfl

/-- The authorship mean likewise. -/
theorem mean_writes : (W1 m ρ c (Proc.devRef .tc main_v45) : S300000x64.Idx → EReal)
    = Cert.ReferenceIdeal.Read.val_main_v55 (F := Ideal) (m ((c : Thread nD τ).loc main_arg1)) (m ((c : Thread nD τ).loc main_arg3)) := by
  show StableHlo.after hostOps0 (W0 m ρ c) (Proc.devRef .tc main_v45) = _
  after_results_simp
  rfl

/-- The reverse-relation mean likewise. -/
theorem mean_rev : (W1 m ρ c (Proc.devRef .tc main_v68) : S150000x128.Idx → EReal)
    = Cert.ReferenceIdeal.Read.val_main_v87 (F := Ideal) (m ((c : Thread nD τ).loc main_arg0)) (m ((c : Thread nD τ).loc main_arg4)) := by
  show StableHlo.after hostOps0 (W0 m ρ c) (Proc.devRef .tc main_v68) = _
  after_results_simp
  rfl

/-- The citation relation's bias row. -/
theorem bias_c : (W1 m ρ c (Proc.devRef .tc main_v69) : S1x32.Idx → EReal)
    = Cert.ReferenceIdeal.Read.val_main_v26 (F := Ideal) (m ((c : Thread nD τ).loc main_arg6)) := by
  show StableHlo.after hostOps0 (W0 m ρ c) (Proc.devRef .tc main_v69) = _
  after_results_simp
  exact bias_row26 _ _

/-- The authorship relation's bias row. -/
theorem bias_w : (W1 m ρ c (Proc.devRef .tc main_v70) : S1x32.Idx → EReal)
    = Cert.ReferenceIdeal.Read.val_main_v57 (F := Ideal) (m ((c : Thread nD τ).loc main_arg9)) := by
  show StableHlo.after hostOps0 (W0 m ρ c) (Proc.devRef .tc main_v70) = _
  after_results_simp
  exact bias_row57 _ _

/-! No argument array is written by the stretch. -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg1 : W1 m ρ c (Proc.devRef .tc main_arg1) = m ((c : Thread nD τ).loc main_arg1) := by
  show StableHlo.after hostOps0 (W0 m ρ c) (Proc.devRef .tc main_arg1) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg10 : W1 m ρ c (Proc.devRef .tc main_arg10) = m ((c : Thread nD τ).loc main_arg10) := by
  show StableHlo.after hostOps0 (W0 m ρ c) (Proc.devRef .tc main_arg10) = _
  after_results_simp <;> rfl
theorem W1_arg11 : W1 m ρ c (Proc.devRef .tc main_arg11) = m ((c : Thread nD τ).loc main_arg11) := by
  show StableHlo.after hostOps0 (W0 m ρ c) (Proc.devRef .tc main_arg11) = _
  after_results_simp <;> rfl
theorem W1_arg12 : W1 m ρ c (Proc.devRef .tc main_arg12) = m ((c : Thread nD τ).loc main_arg12) := by
  show StableHlo.after hostOps0 (W0 m ρ c) (Proc.devRef .tc main_arg12) = _
  after_results_simp <;> rfl
theorem W1_arg13 : W1 m ρ c (Proc.devRef .tc main_arg13) = m ((c : Thread nD τ).loc main_arg13) := by
  show StableHlo.after hostOps0 (W0 m ρ c) (Proc.devRef .tc main_arg13) = _
  after_results_simp <;> rfl
theorem W1_arg14 : W1 m ρ c (Proc.devRef .tc main_arg14) = m ((c : Thread nD τ).loc main_arg14) := by
  show StableHlo.after hostOps0 (W0 m ρ c) (Proc.devRef .tc main_arg14) = _
  after_results_simp <;> rfl
theorem W1_arg15 : W1 m ρ c (Proc.devRef .tc main_arg15) = m ((c : Thread nD τ).loc main_arg15) := by
  show StableHlo.after hostOps0 (W0 m ρ c) (Proc.devRef .tc main_arg15) = _
  after_results_simp <;> rfl
theorem W1_arg16 : W1 m ρ c (Proc.devRef .tc main_arg16) = m ((c : Thread nD τ).loc main_arg16) := by
  show StableHlo.after hostOps0 (W0 m ρ c) (Proc.devRef .tc main_arg16) = _
  after_results_simp <;> rfl
theorem W1_arg17 : W1 m ρ c (Proc.devRef .tc main_arg17) = m ((c : Thread nD τ).loc main_arg17) := by
  show StableHlo.after hostOps0 (W0 m ρ c) (Proc.devRef .tc main_arg17) = _
  after_results_simp <;> rfl
theorem W1_arg18 : W1 m ρ c (Proc.devRef .tc main_arg18) = m ((c : Thread nD τ).loc main_arg18) := by
  show StableHlo.after hostOps0 (W0 m ρ c) (Proc.devRef .tc main_arg18) = _
  after_results_simp <;> rfl
theorem W1_arg19 : W1 m ρ c (Proc.devRef .tc main_arg19) = m ((c : Thread nD τ).loc main_arg19) := by
  show StableHlo.after hostOps0 (W0 m ρ c) (Proc.devRef .tc main_arg19) = _
  after_results_simp <;> rfl
theorem W1_arg23 : W1 m ρ c (Proc.devRef .tc main_arg23) = m ((c : Thread nD τ).loc main_arg23) := by
  show StableHlo.after hostOps0 (W0 m ρ c) (Proc.devRef .tc main_arg23) = _
  after_results_simp <;> rfl
theorem W1_arg24 : W1 m ρ c (Proc.devRef .tc main_arg24) = m ((c : Thread nD τ).loc main_arg24) := by
  show StableHlo.after hostOps0 (W0 m ρ c) (Proc.devRef .tc main_arg24) = _
  after_results_simp <;> rfl

end Cert.KernelIdeal.Stretch0

end
-- ==== Proof.DenseSpec.lean ====
/-
  The dense layers of a two-layer mean-aggregating graph network, entry by entry on the extended reals.

  An entry of a matrix product is the sum over the contracted axis of row entry times column entry. A layer over
  two relations adds, per destination row, the product of the first neighbourhood mean with its weights, a bias
  row, the product of the node's own features with the root weights, and the same three terms for the second
  relation. The first layer clamps at zero from below; the second feeds a one-column output head and adds its bias.

  Addition on the extended reals is associative (no finiteness is needed for that), so the six terms of a
  two-relation layer may be grouped three and three or summed left to right: `six_regroup`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The row coordinate of a rank-2 index, as a number below the first extent. -/
abbrev row {A B : Nat} (i : (⟨2, ![A, B]⟩ : Shape).Idx) : Fin A := ⟨(i 0).val, idx2_lt0 i⟩
/-- The column coordinate of a rank-2 index, as a number below the second extent. -/
abbrev col {A B : Nat} (i : (⟨2, ![A, B]⟩ : Shape).Idx) : Fin B := ⟨(i 1).val, (i 1).isLt⟩

/-- Entry `(p, q)` of the product of an `A × K` array with a `K × B` array. -/
def rowDot {A K B : Nat} (x : (⟨2, ![A, K]⟩ : Shape).Idx → EReal) (w : (⟨2, ![K, B]⟩ : Shape).Idx → EReal)
    (p : Fin A) (q : Fin B) : EReal :=
  ∑ k : Fin K, x (ix2 p k) * w (ix2 k q)

/-- The three terms of one relation at entry `(p, q)`: mean · Wl + bias + own · Wr. The bias is a `1 × B` row. -/
def sageTerm {A K K' B : Nat} (mn : (⟨2, ![A, K]⟩ : Shape).Idx → EReal) (wl : (⟨2, ![K, B]⟩ : Shape).Idx → EReal)
    (b : (⟨2, ![1, B]⟩ : Shape).Idx → EReal) (own : (⟨2, ![A, K']⟩ : Shape).Idx → EReal)
    (wr : (⟨2, ![K', B]⟩ : Shape).Idx → EReal) (p : Fin A) (q : Fin B) : EReal :=
  rowDot mn wl p q + b (ix2 (0 : Fin 1) q) + rowDot own wr p q

/-- A one-relation layer clamped at zero. -/
def layerOne {A K K' B : Nat} (mn : (⟨2, ![A, K]⟩ : Shape).Idx → EReal) (wl : (⟨2, ![K, B]⟩ : Shape).Idx → EReal)
    (b : (⟨2, ![1, B]⟩ : Shape).Idx → EReal) (own : (⟨2, ![A, K']⟩ : Shape).Idx → EReal)
    (wr : (⟨2, ![K', B]⟩ : Shape).Idx → EReal) (p : Fin A) (q : Fin B) : EReal :=
  max (sageTerm mn wl b own wr p q) 0

/-- The six terms of a two-relation layer summed left to right, before any clamp. -/
def layerTwoSum {A K K' K'' B : Nat} (mn : (⟨2, ![A, K]⟩ : Shape).Idx → EReal) (wl : (⟨2, ![K, B]⟩ : Shape).Idx → EReal)
    (b : (⟨2, ![1, B]⟩ : Shape).Idx → EReal) (own : (⟨2, ![A, K']⟩ : Shape).Idx → EReal)
    (wr : (⟨2, ![K', B]⟩ : Shape).Idx → EReal)
    (mn' : (⟨2, ![A, K'']⟩ : Shape).Idx → EReal) (wl' : (⟨2, ![K'', B]⟩ : Shape).Idx → EReal)
    (b' : (⟨2, ![1, B]⟩ : Shape).Idx → EReal) (wr' : (⟨2, ![K', B]⟩ : Shape).Idx → EReal)
    (p : Fin A) (q : Fin B) : EReal :=
  rowDot mn wl p q + b (ix2 (0 : Fin 1) q) + rowDot own wr p q + rowDot mn' wl' p q + b' (ix2 (0 : Fin 1) q) + rowDot own wr' p q

/-- Six extended reals summed left to right are the first three plus the last three. -/
theorem six_regroup (a b c d e f : EReal) : a + b + c + d + e + f = (a + b + c) + (d + e + f) := by
  simp only [add_assoc]

/-- The left-to-right sum of a two-relation layer is the sum of its two relations' terms. -/
theorem layerTwoSum_eq {A K K' K'' B : Nat} (mn : (⟨2, ![A, K]⟩ : Shape).Idx → EReal) (wl : (⟨2, ![K, B]⟩ : Shape).Idx → EReal)
    (b : (⟨2, ![1, B]⟩ : Shape).Idx → EReal) (own : (⟨2, ![A, K']⟩ : Shape).Idx → EReal)
    (wr : (⟨2, ![K', B]⟩ : Shape).Idx → EReal)
    (mn' : (⟨2, ![A, K'']⟩ : Shape).Idx → EReal) (wl' : (⟨2, ![K'', B]⟩ : Shape).Idx → EReal)
    (b' : (⟨2, ![1, B]⟩ : Shape).Idx → EReal) (wr' : (⟨2, ![K', B]⟩ : Shape).Idx → EReal)
    (p : Fin A) (q : Fin B) :
    layerTwoSum mn wl b own wr mn' wl' b' wr' p q = sageTerm mn wl b own wr p q + sageTerm mn' wl' b' own wr' p q := by
  unfold layerTwoSum sageTerm
  exact six_regroup _ _ _ _ _ _

/-- The output head at row `p`: the hidden row times the one weight column, plus the `1 × 1` bias. -/
def headOut {A K : Nat} (h : (⟨2, ![A, K]⟩ : Shape).Idx → EReal) (w : (⟨2, ![K, 1]⟩ : Shape).Idx → EReal)
    (b : (⟨2, ![1, 1]⟩ : Shape).Idx → EReal) (p : Fin A) (q : Fin 1) : EReal :=
  rowDot h w p q + b (ix2 (0 : Fin 1) q)

end Cert.Sage

end
-- ==== Proof.KernelDots.lean ====
/-
  The kernel's four matrix products read at an index.

  Each product contracts the second axis of its left operand with the first axis of its right operand and has no
  batch axis, so at an output index `(r, c)` the left operand is read at `(r, k)` and the right at `(k, c)` for
  `k` along the contracted axis; into a zero accumulator the product's entry is the sum over `k` of those
  products: the row-times-column sum `Cert.Sage.rowDot`.
-/
import proofs.«148805_j24232205484267_2_alg».proof.Proof.Gen.KernelIdeal
import proofs.«148805_j24232205484267_2_alg».proof.Proof.DenseSpec
import Idealize.ShloMosaic.PureOps.Ideal.Laws
import Idealize.ShloMosaic.Lib.ValueIdx

noncomputable section

namespace Cert.KernelIdeal.Dots

open Cert.KernelIdeal Cert.Sage
open Idealize.ShloMosaic Idealize.ShloMosaic.ValueIdx

/-! ## `S6000x128` times `S128x32` -/

theorem lhs128_0 (i : S6000x32.Idx) (q : dot_S6000x128_S128x32_S6000x32_1_0_0_1_n_n.contr.Idx) : (dot_S6000x128_S128x32_S6000x32_1_0_0_1_n_n.lhsIdx i q 0).val = (i 0).val := by
  unfold DotDims.lhsIdx
  rw [dif_neg (show ¬(0 : Fin S6000x128.rank) ∈ dot_S6000x128_S128x32_S6000x32_1_0_0_1_n_n.lhsBatch by decide), dif_pos (show (0 : Fin S6000x128.rank) ∈ dot_S6000x128_S128x32_S6000x32_1_0_0_1_n_n.lhsNonContracting by decide)]
  rfl
theorem lhs128_1 (i : S6000x32.Idx) (q : dot_S6000x128_S128x32_S6000x32_1_0_0_1_n_n.contr.Idx) : (dot_S6000x128_S128x32_S6000x32_1_0_0_1_n_n.lhsIdx i q 1).val = (q ⟨0, by decide⟩).val :=
  dot_S6000x128_S128x32_S6000x32_1_0_0_1_n_n.lhsIdx_val_of_single rfl i q
theorem rhs128_0 (i : S6000x32.Idx) (q : dot_S6000x128_S128x32_S6000x32_1_0_0_1_n_n.contr.Idx) : (dot_S6000x128_S128x32_S6000x32_1_0_0_1_n_n.rhsIdx i q 0).val = (q ⟨0, by decide⟩).val :=
  dot_S6000x128_S128x32_S6000x32_1_0_0_1_n_n.rhsIdx_val_of_single rfl i q
theorem rhs128_1 (i : S6000x32.Idx) (q : dot_S6000x128_S128x32_S6000x32_1_0_0_1_n_n.contr.Idx) : (dot_S6000x128_S128x32_S6000x32_1_0_0_1_n_n.rhsIdx i q 1).val = (i 1).val := by
  unfold DotDims.rhsIdx
  rw [dif_neg (show ¬(1 : Fin S128x32.rank) ∈ dot_S6000x128_S128x32_S6000x32_1_0_0_1_n_n.rhsBatch by decide), dif_pos (show (1 : Fin S128x32.rank) ∈ dot_S6000x128_S128x32_S6000x32_1_0_0_1_n_n.rhsNonContracting by decide)]
  rfl

/-- The product into a zero accumulator, at an output index, is the row-times-column sum. -/
theorem matmul128_apply {φ₁ φ₂ : FTy} (l : FVec Ideal S6000x128 φ₁) (r : FVec Ideal S128x32 φ₂) (p : Fin 6000) (q : Fin 32) :
    matmul dot_S6000x128_S128x32_S6000x32_1_0_0_1_n_n none l r (constant S6000x32 .f32 0x00000000#32) (ix2 p q) = rowDot (A := 6000) (K := 128) l r p q := by
  unfold rowDot
  show FloatOps.matmul dot_S6000x128_S128x32_S6000x32_1_0_0_1_n_n none l r (constant S6000x32 .f32 0x00000000#32) (ix2 p q) = _
  rw [Ideal.matmul_constant_zero_apply, ← Equiv.sum_comp (contrEquiv1 dot_S6000x128_S128x32_S6000x32_1_0_0_1_n_n 128 rfl rfl).symm]
  refine Finset.sum_congr rfl fun k _ => ?_
  have hk := contrEquiv1_symm_val dot_S6000x128_S128x32_S6000x32_1_0_0_1_n_n 128 rfl rfl k
  have el : dot_S6000x128_S128x32_S6000x32_1_0_0_1_n_n.lhsIdx (ix2 p q) ((contrEquiv1 dot_S6000x128_S128x32_S6000x32_1_0_0_1_n_n 128 rfl rfl).symm k) = ix2 p k := funext fun a => Fin.ext (by
    match a with
    | ⟨0, _⟩ => exact lhs128_0 _ _
    | ⟨1, _⟩ => exact (lhs128_1 _ _).trans hk)
  have er : dot_S6000x128_S128x32_S6000x32_1_0_0_1_n_n.rhsIdx (ix2 p q) ((contrEquiv1 dot_S6000x128_S128x32_S6000x32_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## `S6000x64` times `S64x32` -/

theorem lhs64_0 (i : S6000x32.Idx) (q : dot_S6000x64_S64x32_S6000x32_1_0_0_1_n_n.contr.Idx) : (dot_S6000x64_S64x32_S6000x32_1_0_0_1_n_n.lhsIdx i q 0).val = (i 0).val := by
  unfold DotDims.lhsIdx
  rw [dif_neg (show ¬(0 : Fin S6000x64.rank) ∈ dot_S6000x64_S64x32_S6000x32_1_0_0_1_n_n.lhsBatch by decide), dif_pos (show (0 : Fin S6000x64.rank) ∈ dot_S6000x64_S64x32_S6000x32_1_0_0_1_n_n.lhsNonContracting by decide)]
  rfl
theorem lhs64_1 (i : S6000x32.Idx) (q : dot_S6000x64_S64x32_S6000x32_1_0_0_1_n_n.contr.Idx) : (dot_S6000x64_S64x32_S6000x32_1_0_0_1_n_n.lhsIdx i q 1).val = (q ⟨0, by decide⟩).val :=
  dot_S6000x64_S64x32_S6000x32_1_0_0_1_n_n.lhsIdx_val_of_single rfl i q
theorem rhs64_0 (i : S6000x32.Idx) (q : dot_S6000x64_S64x32_S6000x32_1_0_0_1_n_n.contr.Idx) : (dot_S6000x64_S64x32_S6000x32_1_0_0_1_n_n.rhsIdx i q 0).val = (q ⟨0, by decide⟩).val :=
  dot_S6000x64_S64x32_S6000x32_1_0_0_1_n_n.rhsIdx_val_of_single rfl i q
theorem rhs64_1 (i : S6000x32.Idx) (q : dot_S6000x64_S64x32_S6000x32_1_0_0_1_n_n.contr.Idx) : (dot_S6000x64_S64x32_S6000x32_1_0_0_1_n_n.rhsIdx i q 1).val = (i 1).val := by
  unfold DotDims.rhsIdx
  rw [dif_neg (show ¬(1 : Fin S64x32.rank) ∈ dot_S6000x64_S64x32_S6000x32_1_0_0_1_n_n.rhsBatch by decide), dif_pos (show (1 : Fin S64x32.rank) ∈ dot_S6000x64_S64x32_S6000x32_1_0_0_1_n_n.rhsNonContracting by decide)]
  rfl

/-- The product into a zero accumulator, at an output index, is the row-times-column sum. -/
theorem matmul64_apply {φ₁ φ₂ : FTy} (l : FVec Ideal S6000x64 φ₁) (r : FVec Ideal S64x32 φ₂) (p : Fin 6000) (q : Fin 32) :
    matmul dot_S6000x64_S64x32_S6000x32_1_0_0_1_n_n none l r (constant S6000x32 .f32 0x00000000#32) (ix2 p q) = rowDot (A := 6000) (K := 64) l r p q := by
  unfold rowDot
  show FloatOps.matmul dot_S6000x64_S64x32_S6000x32_1_0_0_1_n_n none l r (constant S6000x32 .f32 0x00000000#32) (ix2 p q) = _
  rw [Ideal.matmul_constant_zero_apply, ← Equiv.sum_comp (contrEquiv1 dot_S6000x64_S64x32_S6000x32_1_0_0_1_n_n 64 rfl rfl).symm]
  refine Finset.sum_congr rfl fun k _ => ?_
  have hk := contrEquiv1_symm_val dot_S6000x64_S64x32_S6000x32_1_0_0_1_n_n 64 rfl rfl k
  have el : dot_S6000x64_S64x32_S6000x32_1_0_0_1_n_n.lhsIdx (ix2 p q) ((contrEquiv1 dot_S6000x64_S64x32_S6000x32_1_0_0_1_n_n 64 rfl rfl).symm k) = ix2 p k := funext fun a => Fin.ext (by
    match a with
    | ⟨0, _⟩ => exact lhs64_0 _ _
    | ⟨1, _⟩ => exact (lhs64_1 _ _).trans hk)
  have er : dot_S6000x64_S64x32_S6000x32_1_0_0_1_n_n.rhsIdx (ix2 p q) ((contrEquiv1 dot_S6000x64_S64x32_S6000x32_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## `S6000x32` times `S32x32` -/

theorem lhs32_0 (i : S6000x32.Idx) (q : dot_S6000x32_S32x32_S6000x32_1_0_0_1_n_n.contr.Idx) : (dot_S6000x32_S32x32_S6000x32_1_0_0_1_n_n.lhsIdx i q 0).val = (i 0).val := by
  unfold DotDims.lhsIdx
  rw [dif_neg (show ¬(0 : Fin S6000x32.rank) ∈ dot_S6000x32_S32x32_S6000x32_1_0_0_1_n_n.lhsBatch by decide), dif_pos (show (0 : Fin S6000x32.rank) ∈ dot_S6000x32_S32x32_S6000x32_1_0_0_1_n_n.lhsNonContracting by decide)]
  rfl
theorem lhs32_1 (i : S6000x32.Idx) (q : dot_S6000x32_S32x32_S6000x32_1_0_0_1_n_n.contr.Idx) : (dot_S6000x32_S32x32_S6000x32_1_0_0_1_n_n.lhsIdx i q 1).val = (q ⟨0, by decide⟩).val :=
  dot_S6000x32_S32x32_S6000x32_1_0_0_1_n_n.lhsIdx_val_of_single rfl i q
theorem rhs32_0 (i : S6000x32.Idx) (q : dot_S6000x32_S32x32_S6000x32_1_0_0_1_n_n.contr.Idx) : (dot_S6000x32_S32x32_S6000x32_1_0_0_1_n_n.rhsIdx i q 0).val = (q ⟨0, by decide⟩).val :=
  dot_S6000x32_S32x32_S6000x32_1_0_0_1_n_n.rhsIdx_val_of_single rfl i q
theorem rhs32_1 (i : S6000x32.Idx) (q : dot_S6000x32_S32x32_S6000x32_1_0_0_1_n_n.contr.Idx) : (dot_S6000x32_S32x32_S6000x32_1_0_0_1_n_n.rhsIdx i q 1).val = (i 1).val := by
  unfold DotDims.rhsIdx
  rw [dif_neg (show ¬(1 : Fin S32x32.rank) ∈ dot_S6000x32_S32x32_S6000x32_1_0_0_1_n_n.rhsBatch by decide), dif_pos (show (1 : Fin S32x32.rank) ∈ dot_S6000x32_S32x32_S6000x32_1_0_0_1_n_n.rhsNonContracting by decide)]
  rfl

/-- The product into a zero accumulator, at an output index, is the row-times-column sum. -/
theorem matmul32_apply {φ₁ φ₂ : FTy} (l : FVec Ideal S6000x32 φ₁) (r : FVec Ideal S32x32 φ₂) (p : Fin 6000) (q : Fin 32) :
    matmul dot_S6000x32_S32x32_S6000x32_1_0_0_1_n_n none l r (constant S6000x32 .f32 0x00000000#32) (ix2 p q) = rowDot (A := 6000) (K := 32) l r p q := by
  unfold rowDot
  show FloatOps.matmul dot_S6000x32_S32x32_S6000x32_1_0_0_1_n_n none l r (constant S6000x32 .f32 0x00000000#32) (ix2 p q) = _
  rw [Ideal.matmul_constant_zero_apply, ← Equiv.sum_comp (contrEquiv1 dot_S6000x32_S32x32_S6000x32_1_0_0_1_n_n 32 rfl rfl).symm]
  refine Finset.sum_congr rfl fun k _ => ?_
  have hk := contrEquiv1_symm_val dot_S6000x32_S32x32_S6000x32_1_0_0_1_n_n 32 rfl rfl k
  have el : dot_S6000x32_S32x32_S6000x32_1_0_0_1_n_n.lhsIdx (ix2 p q) ((contrEquiv1 dot_S6000x32_S32x32_S6000x32_1_0_0_1_n_n 32 rfl rfl).symm k) = ix2 p k := funext fun a => Fin.ext (by
    match a with
    | ⟨0, _⟩ => exact lhs32_0 _ _
    | ⟨1, _⟩ => exact (lhs32_1 _ _).trans hk)
  have er : dot_S6000x32_S32x32_S6000x32_1_0_0_1_n_n.rhsIdx (ix2 p q) ((contrEquiv1 dot_S6000x32_S32x32_S6000x32_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-! ## `S6000x32` times `S32x1` -/

theorem lhs32c_0 (i : S6000x1.Idx) (q : dot_S6000x32_S32x1_S6000x1_1_0_0_1_n_n.contr.Idx) : (dot_S6000x32_S32x1_S6000x1_1_0_0_1_n_n.lhsIdx i q 0).val = (i 0).val := by
  unfold DotDims.lhsIdx
  rw [dif_neg (show ¬(0 : Fin S6000x32.rank) ∈ dot_S6000x32_S32x1_S6000x1_1_0_0_1_n_n.lhsBatch by decide), dif_pos (show (0 : Fin S6000x32.rank) ∈ dot_S6000x32_S32x1_S6000x1_1_0_0_1_n_n.lhsNonContracting by decide)]
  rfl
theorem lhs32c_1 (i : S6000x1.Idx) (q : dot_S6000x32_S32x1_S6000x1_1_0_0_1_n_n.contr.Idx) : (dot_S6000x32_S32x1_S6000x1_1_0_0_1_n_n.lhsIdx i q 1).val = (q ⟨0, by decide⟩).val :=
  dot_S6000x32_S32x1_S6000x1_1_0_0_1_n_n.lhsIdx_val_of_single rfl i q
theorem rhs32c_0 (i : S6000x1.Idx) (q : dot_S6000x32_S32x1_S6000x1_1_0_0_1_n_n.contr.Idx) : (dot_S6000x32_S32x1_S6000x1_1_0_0_1_n_n.rhsIdx i q 0).val = (q ⟨0, by decide⟩).val :=
  dot_S6000x32_S32x1_S6000x1_1_0_0_1_n_n.rhsIdx_val_of_single rfl i q
theorem rhs32c_1 (i : S6000x1.Idx) (q : dot_S6000x32_S32x1_S6000x1_1_0_0_1_n_n.contr.Idx) : (dot_S6000x32_S32x1_S6000x1_1_0_0_1_n_n.rhsIdx i q 1).val = (i 1).val := by
  unfold DotDims.rhsIdx
  rw [dif_neg (show ¬(1 : Fin S32x1.rank) ∈ dot_S6000x32_S32x1_S6000x1_1_0_0_1_n_n.rhsBatch by decide), dif_pos (show (1 : Fin S32x1.rank) ∈ dot_S6000x32_S32x1_S6000x1_1_0_0_1_n_n.rhsNonContracting by decide)]
  rfl

/-- The product into a zero accumulator, at an output index, is the row-times-column sum. -/
theorem matmul32c_apply {φ₁ φ₂ : FTy} (l : FVec Ideal S6000x32 φ₁) (r : FVec Ideal S32x1 φ₂) (p : Fin 6000) (q : Fin 1) :
    matmul dot_S6000x32_S32x1_S6000x1_1_0_0_1_n_n none l r (constant S6000x1 .f32 0x00000000#32) (ix2 p q) = rowDot (A := 6000) (K := 32) l r p q := by
  unfold rowDot
  show FloatOps.matmul dot_S6000x32_S32x1_S6000x1_1_0_0_1_n_n none l r (constant S6000x1 .f32 0x00000000#32) (ix2 p q) = _
  rw [Ideal.matmul_constant_zero_apply, ← Equiv.sum_comp (contrEquiv1 dot_S6000x32_S32x1_S6000x1_1_0_0_1_n_n 32 rfl rfl).symm]
  refine Finset.sum_congr rfl fun k _ => ?_
  have hk := contrEquiv1_symm_val dot_S6000x32_S32x1_S6000x1_1_0_0_1_n_n 32 rfl rfl k
  have el : dot_S6000x32_S32x1_S6000x1_1_0_0_1_n_n.lhsIdx (ix2 p q) ((contrEquiv1 dot_S6000x32_S32x1_S6000x1_1_0_0_1_n_n 32 rfl rfl).symm k) = ix2 p k := funext fun a => Fin.ext (by
    match a with
    | ⟨0, _⟩ => exact lhs32c_0 _ _
    | ⟨1, _⟩ => exact (lhs32c_1 _ _).trans hk)
  have er : dot_S6000x32_S32x1_S6000x1_1_0_0_1_n_n.rhsIdx (ix2 p q) ((contrEquiv1 dot_S6000x32_S32x1_S6000x1_1_0_0_1_n_n 32 rfl rfl).symm k) = ix2 k q := funext fun a => Fin.ext (by
    match a with
    | ⟨0, _⟩ => exact (rhs32c_0 _ _).trans hk
    | ⟨1, _⟩ => exact rhs32c_1 _ _)
  rw [el, er]

end Cert.KernelIdeal.Dots

end
-- ==== Proof.PaperLayer.lean ====
/-
  The first dense layer over the paper nodes, as one whole-array function of what the region finds.

  The region has 50 grid points; point `t` stages rows `6000·t … 6000·t + 5999` of the citation mean and of
  the paper features (128 wide) and of the authorship mean (64 wide), four weight matrices and two bias rows whole,
  and writes back rows `6000·t …` of the 300000 × 32 output. Its body sums, per row and left to right, mean · Wl +
  bias + own · Wr for the citation relation and the same three terms for the authorship relation, and clamps at zero.
  So block `t` of the output is block `t` of the clamped two-relation layer of the nine arrays, the blocks tile
  the output, and the output array after the region is that function.
-/
import proofs.«148805_j24232205484267_2_alg».proof.Proof.Gen.KernelIdeal.Frame
import proofs.«148805_j24232205484267_2_alg».proof.Proof.KernelDots
import Idealize.ShloMosaic.Lib.Pipeline.Value
import Idealize.ShloMosaic.Lib.ValueLayout

set_option maxRecDepth 16384

noncomputable section

namespace Cert.KernelIdeal.PaperLayer

open Cert.KernelIdeal Cert.KernelIdeal.Gen Cert.KernelIdeal.Dots Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `p`, column `q` of a block: the clamped two-relation layer of the nine staged blocks. -/
theorem pay_apply (x0 x3 : Vec Ideal S6000x128 .f32) (x5 : Vec Ideal S6000x64 .f32) (x8 x10 : Vec Ideal S128x32 .f32)
    (x12 : Vec Ideal S64x32 .f32) (x14 : Vec Ideal S128x32 .f32) (x17 x25 : Vec Ideal S1x32 .f32) (p : Fin 6000) (q : Fin 32) :
    k0_pay1 x0 x3 x5 x8 x10 x12 x14 x17 x25 (ix2 p q)
      = max (layerTwoSum (A := 6000) (K := 128) (K' := 128) (K'' := 64) (B := 32) x0 x8 x17 x3 x10 x5 x12 x25 x14 p q) 0 := by
  unfold k0_pay1 layerTwoSum
  simp only [maximumf_apply, addf_apply, broadcast_apply]
  rw [matmul128_apply, matmul128_apply, matmul128_apply, matmul64_apply, broadcastTo_1b_ab_apply, broadcastTo_1b_ab_apply]
  simp only [shapeCast_self]
  show max (rowDot (A := 6000) (K := 128) x0 x8 p q + x17 (ix2 (0 : Fin 1) q) + rowDot (A := 6000) (K := 128) x3 x10 p q
    + rowDot (A := 6000) (K := 64) x5 x12 p q + x25 (ix2 (0 : Fin 1) q) + rowDot (A := 6000) (K := 128) x3 x14 p q) (Ideal.ofBits .f32 0x00000000#32) = _
  rw [Ideal.ofBits_zero_f32]

/-- The region's output as one function of the arrays it finds. -/
def G (c : Dev nD) : S300000x32.Idx → EReal := fun i =>
  max (layerTwoSum (A := 300000) (K := 128) (K' := 128) (K'' := 64) (B := 32)
    (V c main_v22 : S300000x128.Idx → EReal) (V c main_arg5 : S128x32.Idx → EReal) (V c main_v69 : S1x32.Idx → EReal)
    (V c main_arg0 : S300000x128.Idx → EReal) (V c main_arg7 : S128x32.Idx → EReal)
    (V c main_v45 : S300000x64.Idx → EReal) (V c main_arg8 : S64x32.Idx → EReal) (V c main_v70 : S1x32.Idx → EReal)
    (V c main_arg10 : S128x32.Idx → EReal) (row i) (col i)) 0

/-- The printed index maps over the grid: the three row-blocked inputs move with the output's row block, the weights
    and the bias rows stay at block zero, and the output's row block is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- What point `t` writes back is block `t` of `G`. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S6000x128) hz, View.ld_unit_zero (S := S6000x64) hz, View.ld_unit_zero (S := S128x32) hz,
    View.ld_unit_zero (S := S64x32) hz, View.ld_unit_zero (S := S1x32) hz]
  obtain ⟨a0_0, a0_1, a1_0, a1_1, a2_0, a2_1, a3_0, a3_1, a4_0, a4_1, a5_0, a5_1, a6_0, a6_1, a7_0, a7_1, a8_0, a8_1, a9_0, a9_1⟩ := idx_facts t
  funext j
  obtain ⟨p, q, rfl⟩ : ∃ (p : Fin 6000) (q : Fin 32), j = ix2 p q := ⟨j 0, j 1, eq_ix2 j⟩
  show k0_pay1 (iblk0 V c 0 t) (iblk0 V c 1 t) (iblk0 V c 2 t) (iblk0 V c 3 t) (iblk0 V c 5 t) (iblk0 V c 6 t) (iblk0 V c 8 t)
      (iblk0 V c 4 t) (iblk0 V c 7 t) (ix2 p q)
    = G V c (((cfg0.win 9).blk t).view.emb (ix2 p q))
  rw [pay_apply]
  unfold G layerTwoSum rowDot
  have r0 : (row (((cfg0.win 9).blk t).view.emb (ix2 p q))).val = win0_9.index t (0 : Fin 2) * 6000 + 1 * p.val := rfl
  have r1 : (col (((cfg0.win 9).blk t).view.emb (ix2 p q))).val = win0_9.index t (1 : Fin 2) * 32 + 1 * q.val := rfl
  have h0 : ∀ k : Fin 128, iblk0 V c 0 t (ix2 p k)
      = (V c main_v22 : S300000x128.Idx → EReal) (ix2 (row (((cfg0.win 9).blk t).view.emb (ix2 p q))) k) := fun k => by
    show (V c main_v22 : S300000x128.Idx → EReal) (((cfg0.win 0).blk t).view.emb (ix2 p k)) = _
    refine congrArg _ (funext fun a => Fin.ext ?_)
    match a with
    | ⟨0, _⟩ => show win0_0.index t (0 : Fin 2) * 6000 + 1 * p.val = _; rw [r0]; omega
    | ⟨1, _⟩ => show win0_0.index t (1 : Fin 2) * 128 + 1 * k.val = k.val; omega
  have h1 : ∀ k : Fin 128, iblk0 V c 1 t (ix2 p k)
      = (V c main_arg0 : S300000x128.Idx → EReal) (ix2 (row (((cfg0.win 9).blk t).view.emb (ix2 p q))) k) := fun k => by
    show (V c main_arg0 : S300000x128.Idx → EReal) (((cfg0.win 1).blk t).view.emb (ix2 p k)) = _
    refine congrArg _ (funext fun a => Fin.ext ?_)
    match a with
    | ⟨0, _⟩ => show win0_1.index t (0 : Fin 2) * 6000 + 1 * p.val = _; rw [r0]; omega
    | ⟨1, _⟩ => show win0_1.index t (1 : Fin 2) * 128 + 1 * k.val = k.val; omega
  have h2 : ∀ k : Fin 64, iblk0 V c 2 t (ix2 p k)
      = (V c main_v45 : S300000x64.Idx → EReal) (ix2 (row (((cfg0.win 9).blk t).view.emb (ix2 p q))) k) := fun k => by
    show (V c main_v45 : S300000x64.Idx → EReal) (((cfg0.win 2).blk t).view.emb (ix2 p k)) = _
    refine congrArg _ (funext fun a => Fin.ext ?_)
    match a with
    | ⟨0, _⟩ => show win0_2.index t (0 : Fin 2) * 6000 + 1 * p.val = _; rw [r0]; omega
    | ⟨1, _⟩ => show win0_2.index t (1 : Fin 2) * 64 + 1 * k.val = k.val; omega
  have h3 : ∀ k : Fin 128, iblk0 V c 3 t (ix2 k q)
      = (V c main_arg5 : S128x32.Idx → EReal) (ix2 k (col (((cfg0.win 9).blk t).view.emb (ix2 p q)))) := fun k => by
    show (V c main_arg5 : S128x32.Idx → EReal) (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 32 + 1 * q.val = _; rw [r1]; omega
  have h4 : iblk0 V c 4 t (ix2 (0 : Fin 1) q)
      = (V c main_v69 : S1x32.Idx → EReal) (ix2 (0 : Fin 1) (col (((cfg0.win 9).blk t).view.emb (ix2 p q)))) := by
    show (V c main_v69 : S1x32.Idx → EReal) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 32 + 1 * q.val = _; rw [r1]; omega
  have h5 : ∀ k : Fin 128, iblk0 V c 5 t (ix2 k q)
      = (V c main_arg7 : S128x32.Idx → EReal) (ix2 k (col (((cfg0.win 9).blk t).view.emb (ix2 p q)))) := fun k => by
    show (V c main_arg7 : S128x32.Idx → EReal) (((cfg0.win 5).blk t).view.emb (ix2 k q)) = _
    refine congrArg _ (funext fun a => Fin.ext ?_)
    match a with
    | ⟨0, _⟩ => show win0_5.index t (0 : Fin 2) * 128 + 1 * k.val = k.val; omega
    | ⟨1, _⟩ => show win0_5.index t (1 : Fin 2) * 32 + 1 * q.val = _; rw [r1]; omega
  have h6 : ∀ k : Fin 64, iblk0 V c 6 t (ix2 k q)
      = (V c main_arg8 : S64x32.Idx → EReal) (ix2 k (col (((cfg0.win 9).blk t).view.emb (ix2 p q)))) := fun k => by
    show (V c main_arg8 : S64x32.Idx → EReal) (((cfg0.win 6).blk t).view.emb (ix2 k q)) = _
    refine congrArg _ (funext fun a => Fin.ext ?_)
    match a with
    | ⟨0, _⟩ => show win0_6.index t (0 : Fin 2) * 64 + 1 * k.val = k.val; omega
    | ⟨1, _⟩ => show win0_6.index t (1 : Fin 2) * 32 + 1 * q.val = _; rw [r1]; omega
  have h7 : iblk0 V c 7 t (ix2 (0 : Fin 1) q)
      = (V c main_v70 : S1x32.Idx → EReal) (ix2 (0 : Fin 1) (col (((cfg0.win 9).blk t).view.emb (ix2 p q)))) := by
    show (V c main_v70 : S1x32.Idx → EReal) (((cfg0.win 7).blk t).view.emb (ix2 (0 : Fin 1) q)) = _
    refine congrArg _ (funext fun a => Fin.ext ?_)
    match a with
    | ⟨0, _⟩ => show win0_7.index t (0 : Fin 2) * 1 + 1 * 0 = 0; omega
    | ⟨1, _⟩ => show win0_7.index t (1 : Fin 2) * 32 + 1 * q.val = _; rw [r1]; omega
  have h8 : ∀ k : Fin 128, iblk0 V c 8 t (ix2 k q)
      = (V c main_arg10 : S128x32.Idx → EReal) (ix2 k (col (((cfg0.win 9).blk t).view.emb (ix2 p q)))) := fun k => by
    show (V c main_arg10 : S128x32.Idx → EReal) (((cfg0.win 8).blk t).view.emb (ix2 k q)) = _
    refine congrArg _ (funext fun a => Fin.ext ?_)
    match a with
    | ⟨0, _⟩ => show win0_8.index t (0 : Fin 2) * 128 + 1 * k.val = k.val; omega
    | ⟨1, _⟩ => show win0_8.index t (1 : Fin 2) * 32 + 1 * q.val = _; rw [r1]; omega
  rw [h4, h7, Finset.sum_congr rfl (fun k _ => congrArg₂ (fun a b : EReal => a * b) (h0 k) (h3 k)),
    Finset.sum_congr rfl (fun k _ => congrArg₂ (fun a b : EReal => a * b) (h1 k) (h5 k)),
    Finset.sum_congr rfl (fun k _ => congrArg₂ (fun a b : EReal => a * b) (h2 k) (h6 k)),
    Finset.sum_congr rfl (fun k _ => congrArg₂ (fun a b : EReal => a * b) (h1 k) (h8 k))]

/-- An index of the output array is in point `t`'s block iff each coordinate is in the block's range. -/
theorem mem_blk (t : Fin cfg0.N) (i : S300000x32.Idx) :
    i ∈ ((cfg0.win 9).blk t).view.set ↔ ∀ a : Fin 2, win0_9.index t a * S6000x32.size a ≤ (i a).val ∧ (i a).val < win0_9.index t a * S6000x32.size a + S6000x32.size a := by
  show i ∈ ((View.whole main_v71).slice (win0_9.rect t)).set ↔ _
  rw [View.set_slice_whole, Rect.mem_set_unit]
  exact Iff.rfl

/-- The blocks tile the output: row `r` is in the block of point `r / 6000`. -/
theorem cover (i : S300000x32.Idx) : ∃ t : Fin cfg0.N, (cfg0.win 9).flush t = true ∧ i ∈ ((cfg0.win 9).blk t).view.set := by
  have hi0 : (i 0).val < 300000 := (i 0).isLt
  have hi1 : (i 1).val < 32 := (i 1).isLt
  have hN : cfg0.N = 50 := N_0
  have ht : (i 0).val / 6000 < cfg0.N := by rw [hN]; omega
  have hf := idx_facts ⟨(i 0).val / 6000, ht⟩
  have e0 : win0_9.index ⟨(i 0).val / 6000, ht⟩ (0 : Fin 2) = (i 0).val / 6000 := by
    obtain ⟨a0_0, a0_1, a1_0, a1_1, a2_0, a2_1, a3_0, a3_1, a4_0, a4_1, a5_0, a5_1, a6_0, a6_1, a7_0, a7_1, a8_0, a8_1, a9_0, a9_1⟩ := hf; exact a9_0
  have e1 : win0_9.index ⟨(i 0).val / 6000, ht⟩ (1 : Fin 2) = 0 := by
    obtain ⟨a0_0, a0_1, a1_0, a1_1, a2_0, a2_1, a3_0, a3_1, a4_0, a4_1, a5_0, a5_1, a6_0, a6_1, a7_0, a7_1, a8_0, a8_1, a9_0, a9_1⟩ := hf; exact a9_1
  refine ⟨⟨(i 0).val / 6000, ht⟩, flush0_9 _, ?_⟩
  rw [mem_blk]
  intro a
  match a with
  | ⟨0, _⟩ =>
    show win0_9.index ⟨(i 0).val / 6000, ht⟩ (0 : Fin 2) * 6000 ≤ (i 0).val ∧ (i 0).val < win0_9.index ⟨(i 0).val / 6000, ht⟩ (0 : Fin 2) * 6000 + 6000
    rw [e0]; omega
  | ⟨1, _⟩ =>
    show win0_9.index ⟨(i 0).val / 6000, ht⟩ (1 : Fin 2) * 32 ≤ (i 1).val ∧ (i 1).val < win0_9.index ⟨(i 0).val / 6000, ht⟩ (1 : Fin 2) * 32 + 32
    rw [e1]; omega

/-- The output array after the region is `G` of the arrays the region found. -/
theorem final (c : Dev nD) : (dat0 V c).arrAt 9 cfg0.N = G V c :=
  (dat0 V c).arrAt_eq_of_cover 9 (G V c) (fun t _ => flushed_eq V c t) cover

end Cert.KernelIdeal.PaperLayer

end
-- ==== Proof.AuthorLayer.lean ====
/-
  The first dense layer over the author nodes, as one whole-array function of what the region finds.

  The region has 25 grid points; point `t` stages rows `6000·t … 6000·t + 5999` of the neighbourhood mean
  (128 wide) and of the author features (64 wide), the two weight matrices and the bias row whole, and writes back
  rows `6000·t …` of the 150000 × 32 output. Its body computes, per row, mean · Wl + bias + own · Wr clamped at
  zero. So block `t` of the output is block `t` of `Cert.Sage.layerOne` of the five arrays, the blocks tile the
  output, and the output array after the region is that function.
-/
import proofs.«148805_j24232205484267_2_alg».proof.Proof.Gen.KernelIdeal.Frame
import proofs.«148805_j24232205484267_2_alg».proof.Proof.KernelDots
import Idealize.ShloMosaic.Lib.Pipeline.Value
import Idealize.ShloMosaic.Lib.ValueLayout

set_option maxRecDepth 16384

noncomputable section

namespace Cert.KernelIdeal.AuthorLayer

open Cert.KernelIdeal Cert.KernelIdeal.Gen Cert.KernelIdeal.Dots Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at row `p`, column `q` of a block: the one-relation layer of the five staged blocks. -/
theorem pay_apply (x0 : Vec Ideal S6000x128 .f32) (x3 : Vec Ideal S6000x64 .f32) (x5 : Vec Ideal S128x32 .f32)
    (x7 : Vec Ideal S64x32 .f32) (x10 : Vec Ideal S1x32 .f32) (p : Fin 6000) (q : Fin 32) :
    k1_pay1 x0 x3 x5 x7 x10 (ix2 p q)
      = layerOne (A := 6000) (K := 128) (K' := 64) (B := 32) x0 x5 x10 x3 x7 p q := by
  unfold k1_pay1 layerOne sageTerm
  simp only [maximumf_apply, addf_apply, broadcast_apply]
  rw [matmul128_apply, matmul64_apply, broadcastTo_1b_ab_apply, shapeCast_self, shapeCast_self]
  show max (rowDot (A := 6000) (K := 128) x0 x5 p q + x10 (ix2 (0 : Fin 1) q) + rowDot (A := 6000) (K := 64) x3 x7 p q) (Ideal.ofBits .f32 0x00000000#32) = _
  rw [Ideal.ofBits_zero_f32]

/-- The region's output as one function of the arrays it finds: the one-relation layer of the reverse-relation
    mean, the left weights, the bias row, the author features and the root weights. -/
def G (c : Dev nD) : S150000x32.Idx → EReal := fun i =>
  layerOne (A := 150000) (K := 128) (K' := 64) (B := 32)
    (V c main_v68 : S150000x128.Idx → EReal) (V c main_arg11 : S128x32.Idx → EReal) (V c main_v72 : S1x32.Idx → EReal)
    (V c main_arg1 : S150000x64.Idx → EReal) (V c main_arg13 : S64x32.Idx → EReal) (row i) (col i)

/-- The printed index maps over the grid: the two row-blocked inputs move with the output's row block, the weights
    and the bias stay at block zero, and the output's row block is the point's number. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S6000x128) hz, View.ld_unit_zero (S := S6000x64) hz, View.ld_unit_zero (S := S128x32) hz,
    View.ld_unit_zero (S := S64x32) hz, View.ld_unit_zero (S := S1x32) hz]
  obtain ⟨a00, a01, a10, a11, a20, a21, a30, a31, a40, a41, a50, a51⟩ := idx_facts t
  funext j
  obtain ⟨p, q, rfl⟩ : ∃ (p : Fin 6000) (q : Fin 32), j = ix2 p q := ⟨j 0, j 1, eq_ix2 j⟩
  show k1_pay1 (iblk1 V c 0 t) (iblk1 V c 1 t) (iblk1 V c 2 t) (iblk1 V c 4 t) (iblk1 V c 3 t) (ix2 p q)
    = G V c (((cfg1.win 5).blk t).view.emb (ix2 p q))
  rw [pay_apply]
  unfold G layerOne sageTerm rowDot
  have r0 : (row (((cfg1.win 5).blk t).view.emb (ix2 p q))).val = win1_5.index t (0 : Fin 2) * 6000 + 1 * p.val := rfl
  have r1 : (col (((cfg1.win 5).blk t).view.emb (ix2 p q))).val = win1_5.index t (1 : Fin 2) * 32 + 1 * q.val := rfl
  have h0 : ∀ k : Fin 128, iblk1 V c 0 t (ix2 p k)
      = (V c main_v68 : S150000x128.Idx → EReal) (ix2 (row (((cfg1.win 5).blk t).view.emb (ix2 p q))) k) := fun k => by
    show (V c main_v68 : S150000x128.Idx → EReal) (((cfg1.win 0).blk t).view.emb (ix2 p k)) = _
    refine congrArg _ (funext fun a => Fin.ext ?_)
    match a with
    | ⟨0, _⟩ => show win1_0.index t (0 : Fin 2) * 6000 + 1 * p.val = _; rw [r0]; omega
    | ⟨1, _⟩ => show win1_0.index t (1 : Fin 2) * 128 + 1 * k.val = k.val; omega
  have h1 : ∀ k : Fin 64, iblk1 V c 1 t (ix2 p k)
      = (V c main_arg1 : S150000x64.Idx → EReal) (ix2 (row (((cfg1.win 5).blk t).view.emb (ix2 p q))) k) := fun k => by
    show (V c main_arg1 : S150000x64.Idx → EReal) (((cfg1.win 1).blk t).view.emb (ix2 p k)) = _
    refine congrArg _ (funext fun a => Fin.ext ?_)
    match a with
    | ⟨0, _⟩ => show win1_1.index t (0 : Fin 2) * 6000 + 1 * p.val = _; rw [r0]; omega
    | ⟨1, _⟩ => show win1_1.index t (1 : Fin 2) * 64 + 1 * k.val = k.val; omega
  have h2 : ∀ k : Fin 128, iblk1 V c 2 t (ix2 k q)
      = (V c main_arg11 : S128x32.Idx → EReal) (ix2 k (col (((cfg1.win 5).blk t).view.emb (ix2 p q)))) := fun k => by
    show (V c main_arg11 : S128x32.Idx → EReal) (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 32 + 1 * q.val = _; rw [r1]; omega
  have h3 : iblk1 V c 3 t (ix2 (0 : Fin 1) q)
      = (V c main_v72 : S1x32.Idx → EReal) (ix2 (0 : Fin 1) (col (((cfg1.win 5).blk t).view.emb (ix2 p q)))) := by
    show (V c main_v72 : S1x32.Idx → EReal) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * q.val = _; rw [r1]; omega
  have h4 : ∀ k : Fin 64, iblk1 V c 4 t (ix2 k q)
      = (V c main_arg13 : S64x32.Idx → EReal) (ix2 k (col (((cfg1.win 5).blk t).view.emb (ix2 p q)))) := fun k => by
    show (V c main_arg13 : S64x32.Idx → EReal) (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 32 + 1 * q.val = _; rw [r1]; omega
  rw [h3, Finset.sum_congr rfl (fun k _ => congrArg₂ (fun a b : EReal => a * b) (h0 k) (h2 k)),
    Finset.sum_congr rfl (fun k _ => congrArg₂ (fun a b : EReal => a * b) (h1 k) (h4 k))]

/-- An index of the output array is in point `t`'s block iff each coordinate is in the block's range. -/
theorem mem_blk (t : Fin cfg1.N) (i : S150000x32.Idx) :
    i ∈ ((cfg1.win 5).blk t).view.set ↔ ∀ a : Fin 2, win1_5.index t a * S6000x32.size a ≤ (i a).val ∧ (i a).val < win1_5.index t a * S6000x32.size a + S6000x32.size a := by
  show i ∈ ((View.whole main_v73).slice (win1_5.rect t)).set ↔ _
  rw [View.set_slice_whole, Rect.mem_set_unit]
  exact Iff.rfl

/-- The blocks tile the output: row `r` is in the block of point `r / 6000`. -/
theorem cover (i : S150000x32.Idx) : ∃ t : Fin cfg1.N, (cfg1.win 5).flush t = true ∧ i ∈ ((cfg1.win 5).blk t).view.set := by
  have hi0 : (i 0).val < 150000 := (i 0).isLt
  have hi1 : (i 1).val < 32 := (i 1).isLt
  have hN : cfg1.N = 25 := N_1
  have ht : (i 0).val / 6000 < cfg1.N := by rw [hN]; omega
  obtain ⟨a00, a01, a10, a11, a20, a21, a30, a31, a40, a41, a50, a51⟩ := idx_facts ⟨(i 0).val / 6000, ht⟩
  refine ⟨⟨(i 0).val / 6000, ht⟩, flush1_5 _, ?_⟩
  rw [mem_blk]
  intro a
  match a with
  | ⟨0, _⟩ =>
    show win1_5.index ⟨(i 0).val / 6000, ht⟩ (0 : Fin 2) * 6000 ≤ (i 0).val ∧ (i 0).val < win1_5.index ⟨(i 0).val / 6000, ht⟩ (0 : Fin 2) * 6000 + 6000
    rw [a50]; show (i 0).val / 6000 * 6000 ≤ (i 0).val ∧ (i 0).val < (i 0).val / 6000 * 6000 + 6000; omega
  | ⟨1, _⟩ =>
    show win1_5.index ⟨(i 0).val / 6000, ht⟩ (1 : Fin 2) * 32 ≤ (i 1).val ∧ (i 1).val < win1_5.index ⟨(i 0).val / 6000, ht⟩ (1 : Fin 2) * 32 + 32
    rw [a51]; omega

/-- The output array after the region is `G` of the arrays the region found. -/
theorem final (c : Dev nD) : (dat1 V c).arrAt 5 cfg1.N = G V c :=
  (dat1 V c).arrAt_eq_of_cover 5 (G V c) (fun t _ => flushed_eq V c t) cover

end Cert.KernelIdeal.AuthorLayer

end
-- ==== Proof.RefLayers.lean ====
/-
  The reference's dense layers, index by index.

  The reference applies, per relation, a matrix product of the neighbourhood mean with the left weights, a bias
  broadcast along the rows, and a product of the node's own features with the root weights; relations with one
  destination type are added; a clamp at zero follows the first layer; the second layer's sum feeds the
  one-column output head. Read at an index through the generated stage lemmas these are the formulas of
  `Cert.Sage`: a product's entry is a row-times-column sum, a broadcast bias its row entry.
-/
import proofs.«148805_j24232205484267_2_alg».proof.Proof.Gen.ReferenceIdeal.Read
import proofs.«148805_j24232205484267_2_alg».proof.Proof.DenseSpec

set_option maxRecDepth 16384

noncomputable section

namespace Cert.ReferenceIdeal.Layers

open Cert.ReferenceIdeal Cert.ReferenceIdeal.Read Cert.Sage
open Idealize.ShloMosaic Idealize.ShloMosaic.ValueIdx

/-- The author nodes after the first layer and its clamp: the one-relation layer of the reverse-relation mean, the
    left weights, the bias row, the author features and the root weights. -/
theorem author_apply (x0 : (⟨S300000x128, .f32⟩ : BufTy).Contents (Elt Ideal)) (x1 : (⟨S150000x64, .f32⟩ : BufTy).Contents (Elt Ideal))
    (x4 : (⟨S2x500000, .i32⟩ : BufTy).Contents (Elt Ideal)) (x11 : (⟨S128x32, .f32⟩ : BufTy).Contents (Elt Ideal))
    (x12 : (⟨S32, .f32⟩ : BufTy).Contents (Elt Ideal)) (x13 : (⟨S64x32, .f32⟩ : BufTy).Contents (Elt Ideal)) (i : S150000x32.Idx) :
    val_main_v95 (F := Ideal) x0 x1 x4 x11 x12 x13 i
      = layerOne (A := 150000) (K := 128) (K' := 64) (B := 32) (val_main_v87 (F := Ideal) x0 x4) x11 (val_main_v89 (F := Ideal) x12) x1 x13 (row i) (col i) := by
  have e1 : ∀ k, lidx_main_v88 i k = ix2 (row i) k := fun k => funext fun a => Fin.ext (by match a with | ⟨0, _⟩ => rfl | ⟨1, _⟩ => rfl)
  have e2 : ∀ k, ridx_main_v88 i k = ix2 k (col i) := fun k => funext fun a => Fin.ext (by match a with | ⟨0, _⟩ => rfl | ⟨1, _⟩ => rfl)
  have e3 : ∀ k, lidx_main_v92 i k = ix2 (row i) k := fun k => funext fun a => Fin.ext (by match a with | ⟨0, _⟩ => rfl | ⟨1, _⟩ => rfl)
  have e4 : ∀ k, ridx_main_v92 i k = ix2 k (col i) := fun k => funext fun a => Fin.ext (by match a with | ⟨0, _⟩ => rfl | ⟨1, _⟩ => rfl)
  have e5 : idx_main_v90 i = ix2 (0 : Fin 1) (col i) := funext fun a => Fin.ext (by match a with | ⟨0, _⟩ => rfl | ⟨1, _⟩ => rfl)
  rw [val_main_v95_apply, val_main_v93_apply, val_main_v91_apply, val_main_v88_apply, val_main_v92_apply, val_main_v90_apply,
    val_main_call1_v0_apply, val_main_call1_cst_apply]
  simp only [e1, e2, e3, e4, e5]
  unfold layerOne sageTerm rowDot
  rw [Ideal.maximumf_def, Ideal.addf_def, Ideal.addf_def, Ideal.ofBits_def, Ideal.ofBits_zero_f32]

/-- The paper nodes after the first layer and its clamp: the two-relation layer of the citation mean and the authorship mean, each with its weights and bias row, over the paper features. -/
theorem paper_apply (x0 : (⟨S300000x128, .f32⟩ : BufTy).Contents (Elt Ideal)) (x1 : (⟨S150000x64, .f32⟩ : BufTy).Contents (Elt Ideal)) (x2 : (⟨S2x600000, .i32⟩ : BufTy).Contents (Elt Ideal)) (x3 : (⟨S2x500000, .i32⟩ : BufTy).Contents (Elt Ideal)) (x5 : (⟨S128x32, .f32⟩ : BufTy).Contents (Elt Ideal)) (x6 : (⟨S32, .f32⟩ : BufTy).Contents (Elt Ideal)) (x7 : (⟨S128x32, .f32⟩ : BufTy).Contents (Elt Ideal)) (x8 : (⟨S64x32, .f32⟩ : BufTy).Contents (Elt Ideal)) (x9 : (⟨S32, .f32⟩ : BufTy).Contents (Elt Ideal)) (x10 : (⟨S128x32, .f32⟩ : BufTy).Contents (Elt Ideal)) (i : S300000x32.Idx) :
    val_main_v94 (F := Ideal) x0 x1 x2 x3 x5 x6 x7 x8 x9 x10 i
      = max (layerTwoSum (val_main_v24 (F := Ideal) x0 x2) x5 (val_main_v26 (F := Ideal) x6) x0 x7 (val_main_v55 (F := Ideal) x1 x3) x8 (val_main_v57 (F := Ideal) x9) x10 (row i) (col i)) 0 := by
  have el0 : ∀ k, lidx_main_v25 i k = ix2 (row i) k := fun k => funext fun a => Fin.ext (by match a with | ⟨0, _⟩ => rfl | ⟨1, _⟩ => rfl)
  have er0 : ∀ k, ridx_main_v25 i k = ix2 k (col i) := fun k => funext fun a => Fin.ext (by match a with | ⟨0, _⟩ => rfl | ⟨1, _⟩ => rfl)
  have el1 : ∀ k, lidx_main_v29 i k = ix2 (row i) k := fun k => funext fun a => Fin.ext (by match a with | ⟨0, _⟩ => rfl | ⟨1, _⟩ => rfl)
  have er1 : ∀ k, ridx_main_v29 i k = ix2 k (col i) := fun k => funext fun a => Fin.ext (by match a with | ⟨0, _⟩ => rfl | ⟨1, _⟩ => rfl)
  have el2 : ∀ k, lidx_main_v56 i k = ix2 (row i) k := fun k => funext fun a => Fin.ext (by match a with | ⟨0, _⟩ => rfl | ⟨1, _⟩ => rfl)
  have er2 : ∀ k, ridx_main_v56 i k = ix2 k (col i) := fun k => funext fun a => Fin.ext (by match a with | ⟨0, _⟩ => rfl | ⟨1, _⟩ => rfl)
  have el3 : ∀ k, lidx_main_v60 i k = ix2 (row i) k := fun k => funext fun a => Fin.ext (by match a with | ⟨0, _⟩ => rfl | ⟨1, _⟩ => rfl)
  have er3 : ∀ k, ridx_main_v60 i k = ix2 k (col i) := fun k => funext fun a => Fin.ext (by match a with | ⟨0, _⟩ => rfl | ⟨1, _⟩ => rfl)
  have eb0 : idx_main_v27 i = ix2 (0 : Fin 1) (col i) := funext fun a => Fin.ext (by match a with | ⟨0, _⟩ => rfl | ⟨1, _⟩ => rfl)
  have eb1 : idx_main_v58 i = ix2 (0 : Fin 1) (col i) := funext fun a => Fin.ext (by match a with | ⟨0, _⟩ => rfl | ⟨1, _⟩ => rfl)
  rw [val_main_v94_apply, val_main_v62_apply, val_main_v30_apply, val_main_v28_apply, val_main_v25_apply, val_main_v27_apply, val_main_v29_apply, val_main_v61_apply, val_main_v59_apply, val_main_v56_apply, val_main_v58_apply, val_main_v60_apply, val_main_call0_v0_apply, val_main_call0_cst_apply]
  simp only [el0, er0, el1, er1, el2, er2, el3, er3, eb0, eb1]
  rw [layerTwoSum_eq]
  unfold sageTerm rowDot
  simp only [Ideal.maximumf_def, Ideal.addf_def, Ideal.ofBits_def, Ideal.ofBits_zero_f32]

/-- The second layer's sum over the paper nodes, before the output head: the two-relation layer of the second-round means over the first layer's paper rows. -/
theorem hidden_apply (x0 : (⟨S300000x128, .f32⟩ : BufTy).Contents (Elt Ideal)) (x1 : (⟨S150000x64, .f32⟩ : BufTy).Contents (Elt Ideal)) (x2 : (⟨S2x600000, .i32⟩ : BufTy).Contents (Elt Ideal)) (x3 : (⟨S2x500000, .i32⟩ : BufTy).Contents (Elt Ideal)) (x4 : (⟨S2x500000, .i32⟩ : BufTy).Contents (Elt Ideal)) (x5 : (⟨S128x32, .f32⟩ : BufTy).Contents (Elt Ideal)) (x6 : (⟨S32, .f32⟩ : BufTy).Contents (Elt Ideal)) (x7 : (⟨S128x32, .f32⟩ : BufTy).Contents (Elt Ideal)) (x8 : (⟨S64x32, .f32⟩ : BufTy).Contents (Elt Ideal)) (x9 : (⟨S32, .f32⟩ : BufTy).Contents (Elt Ideal)) (x10 : (⟨S128x32, .f32⟩ : BufTy).Contents (Elt Ideal)) (x11 : (⟨S128x32, .f32⟩ : BufTy).Contents (Elt Ideal)) (x12 : (⟨S32, .f32⟩ : BufTy).Contents (Elt Ideal)) (x13 : (⟨S64x32, .f32⟩ : BufTy).Contents (Elt Ideal)) (x14 : (⟨S32x32, .f32⟩ : BufTy).Contents (Elt Ideal)) (x15 : (⟨S32, .f32⟩ : BufTy).Contents (Elt Ideal)) (x16 : (⟨S32x32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (i : S300000x32.Idx) :
    val_main_v158 (F := Ideal) x0 x1 x2 x3 x4 x5 x6 x7 x8 x9 x10 x11 x12 x13 x14 x15 x16 x17 x18 x19 i
      = layerTwoSum (val_main_v120 (F := Ideal) x0 x1 x2 x3 x5 x6 x7 x8 x9 x10) x14 (val_main_v122 (F := Ideal) x15) (val_main_v94 (F := Ideal) x0 x1 x2 x3 x5 x6 x7 x8 x9 x10) x16 (val_main_v151 (F := Ideal) x0 x1 x3 x4 x11 x12 x13) x17 (val_main_v153 (F := Ideal) x18) x19 (row i) (col i) := by
  have el0 : ∀ k, lidx_main_v121 i k = ix2 (row i) k := fun k => funext fun a => Fin.ext (by match a with | ⟨0, _⟩ => rfl | ⟨1, _⟩ => rfl)
  have er0 : ∀ k, ridx_main_v121 i k = ix2 k (col i) := fun k => funext fun a => Fin.ext (by match a with | ⟨0, _⟩ => rfl | ⟨1, _⟩ => rfl)
  have el1 : ∀ k, lidx_main_v125 i k = ix2 (row i) k := fun k => funext fun a => Fin.ext (by match a with | ⟨0, _⟩ => rfl | ⟨1, _⟩ => rfl)
  have er1 : ∀ k, ridx_main_v125 i k = ix2 k (col i) := fun k => funext fun a => Fin.ext (by match a with | ⟨0, _⟩ => rfl | ⟨1, _⟩ => rfl)
  have el2 : ∀ k, lidx_main_v152 i k = ix2 (row i) k := fun k => funext fun a => Fin.ext (by match a with | ⟨0, _⟩ => rfl | ⟨1, _⟩ => rfl)
  have er2 : ∀ k, ridx_main_v152 i k = ix2 k (col i) := fun k => funext fun a => Fin.ext (by match a with | ⟨0, _⟩ => rfl | ⟨1, _⟩ => rfl)
  have el3 : ∀ k, lidx_main_v156 i k = ix2 (row i) k := fun k => funext fun a => Fin.ext (by match a with | ⟨0, _⟩ => rfl | ⟨1, _⟩ => rfl)
  have er3 : ∀ k, ridx_main_v156 i k = ix2 k (col i) := fun k => funext fun a => Fin.ext (by match a with | ⟨0, _⟩ => rfl | ⟨1, _⟩ => rfl)
  have eb0 : idx_main_v123 i = ix2 (0 : Fin 1) (col i) := funext fun a => Fin.ext (by match a with | ⟨0, _⟩ => rfl | ⟨1, _⟩ => rfl)
  have eb1 : idx_main_v154 i = ix2 (0 : Fin 1) (col i) := funext fun a => Fin.ext (by match a with | ⟨0, _⟩ => rfl | ⟨1, _⟩ => rfl)
  rw [val_main_v158_apply, val_main_v126_apply, val_main_v124_apply, val_main_v121_apply, val_main_v123_apply, val_main_v125_apply, val_main_v157_apply, val_main_v155_apply, val_main_v152_apply, val_main_v154_apply, val_main_v156_apply]
  simp only [el0, er0, el1, er1, el2, er2, el3, er3, eb0, eb1]
  rw [layerTwoSum_eq]
  unfold sageTerm rowDot
  simp only [Ideal.maximumf_def, Ideal.addf_def, Ideal.ofBits_def, Ideal.ofBits_zero_f32]

/-- The result: the output head over the second layer's sum. -/
theorem out_apply (x0 : (⟨S300000x128, .f32⟩ : BufTy).Contents (Elt Ideal)) (x1 : (⟨S150000x64, .f32⟩ : BufTy).Contents (Elt Ideal)) (x2 : (⟨S2x600000, .i32⟩ : BufTy).Contents (Elt Ideal)) (x3 : (⟨S2x500000, .i32⟩ : BufTy).Contents (Elt Ideal)) (x4 : (⟨S2x500000, .i32⟩ : BufTy).Contents (Elt Ideal)) (x5 : (⟨S128x32, .f32⟩ : BufTy).Contents (Elt Ideal)) (x6 : (⟨S32, .f32⟩ : BufTy).Contents (Elt Ideal)) (x7 : (⟨S128x32, .f32⟩ : BufTy).Contents (Elt Ideal)) (x8 : (⟨S64x32, .f32⟩ : BufTy).Contents (Elt Ideal)) (x9 : (⟨S32, .f32⟩ : BufTy).Contents (Elt Ideal)) (x10 : (⟨S128x32, .f32⟩ : BufTy).Contents (Elt Ideal)) (x11 : (⟨S128x32, .f32⟩ : BufTy).Contents (Elt Ideal)) (x12 : (⟨S32, .f32⟩ : BufTy).Contents (Elt Ideal)) (x13 : (⟨S64x32, .f32⟩ : BufTy).Contents (Elt Ideal)) (x14 : (⟨S32x32, .f32⟩ : BufTy).Contents (Elt Ideal)) (x15 : (⟨S32, .f32⟩ : BufTy).Contents (Elt Ideal)) (x16 : (⟨S32x32, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x23 : (⟨S32x1, .f32⟩ : BufTy).Contents (Elt Ideal)) (x24 : (⟨S1, .f32⟩ : BufTy).Contents (Elt Ideal)) (i : S300000x1.Idx) :
    val_main_v162 (F := Ideal) x0 x1 x2 x3 x4 x5 x6 x7 x8 x9 x10 x11 x12 x13 x14 x15 x16 x17 x18 x19 x23 x24 i
      = headOut (A := 300000) (K := 32) (fun j => layerTwoSum (val_main_v120 (F := Ideal) x0 x1 x2 x3 x5 x6 x7 x8 x9 x10) x14 (val_main_v122 (F := Ideal) x15) (val_main_v94 (F := Ideal) x0 x1 x2 x3 x5 x6 x7 x8 x9 x10) x16 (val_main_v151 (F := Ideal) x0 x1 x3 x4 x11 x12 x13) x17 (val_main_v153 (F := Ideal) x18) x19 (row j) (col j))
          x23 (val_main_v160 (F := Ideal) x24) (row i) (col i) := by
  have el : ∀ k, lidx_main_v159 i k = ix2 (row i) k := fun k => funext fun a => Fin.ext (by match a with | ⟨0, _⟩ => rfl | ⟨1, _⟩ => rfl)
  have er : ∀ k, ridx_main_v159 i k = ix2 k (col i) := fun k => funext fun a => Fin.ext (by match a with | ⟨0, _⟩ => rfl | ⟨1, _⟩ => rfl)
  have eb : idx_main_v161 i = ix2 (0 : Fin 1) (col i) := funext fun a => Fin.ext (by
    match a with
    | ⟨0, _⟩ => rfl
    | ⟨1, _⟩ => show (0 : ℕ) = (i 1).val; have h : (i 1).val < 1 := (i 1).isLt; omega)
  rw [val_main_v162_apply, val_main_v159_apply, val_main_v161_apply]
  simp only [el, er, eb, hidden_apply]
  unfold headOut rowDot
  simp only [Ideal.addf_def]

end Cert.ReferenceIdeal.Layers

end
-- ==== Proof.Stretch1.lean ====
/-
  From the first region to the second round of means: what the two first-layer regions leave.

  The first region's output array is the clamped two-relation layer of what it found; what it found are the
  reference's means and bias rows of the launch contents and argument arrays as launched, so its output IS the
  reference's paper rows after the first layer. Nothing the second region reads is touched in between except the
  author bias, laid out as a row; its output IS the reference's author rows after the first layer.
-/
import proofs.«148805_j24232205484267_2_alg».proof.Proof.Stretch0
import proofs.«148805_j24232205484267_2_alg».proof.Proof.PaperLayer
import proofs.«148805_j24232205484267_2_alg».proof.Proof.AuthorLayer
import proofs.«148805_j24232205484267_2_alg».proof.Proof.RefLayers
import Idealize.ShloMosaic.Lib.StableHlo.Run
import Idealize.ShloMosaic.Lib.ValueLayout

set_option maxRecDepth 16384

noncomputable section

namespace Cert.KernelIdeal.Stretch1

open Cert.KernelIdeal Cert.KernelIdeal.Gen Cert.Sage Cert.KernelIdeal.Stretch0
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- A length-32 vector reshaped to a `1 × 32` row is the vector broadcast into that row (the reverse relation's bias). -/
theorem bias_row89 (x : S32.Idx → EReal) (h : S32.ShapeCasts S1x32) :
    shapeCast S1x32 x h = Cert.ReferenceIdeal.Read.val_main_v89 (F := Ideal) x := by
  funext j
  obtain ⟨u, q, rfl⟩ : ∃ (u : Fin 1) (q : Fin 32), j = ix2 u q := ⟨j 0, j 1, eq_ix2 j⟩
  rw [shapeCast_a_1a_apply, Cert.ReferenceIdeal.Read.val_main_v89_apply]
  exact congrArg x (funext fun a => Fin.ext (by match a with | ⟨0, _⟩ => rfl))

/-- The paper rows after the first layer: the first region's output is the reference's. -/
theorem paper_rows : (W2 m ρ c (Proc.devRef .tc main_v71) : S300000x32.Idx → EReal)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 9).trans ((PaperLayer.final (V1 m ρ) c).trans ?_)
  funext i
  rw [Cert.ReferenceIdeal.Layers.paper_apply]
  show max (layerTwoSum (A := 300000) (K := 128) (K' := 128) (K'' := 64) (B := 32)
    (W1 m ρ c (Proc.devRef .tc main_v22) : S300000x128.Idx → EReal) (W1 m ρ c (Proc.devRef .tc main_arg5) : S128x32.Idx → EReal) (W1 m ρ c (Proc.devRef .tc main_v69) : S1x32.Idx → EReal)
    (W1 m ρ c (Proc.devRef .tc main_arg0) : S300000x128.Idx → EReal) (W1 m ρ c (Proc.devRef .tc main_arg7) : S128x32.Idx → EReal)
    (W1 m ρ c (Proc.devRef .tc main_v45) : S300000x64.Idx → EReal) (W1 m ρ c (Proc.devRef .tc main_arg8) : S64x32.Idx → EReal) (W1 m ρ c (Proc.devRef .tc main_v70) : S1x32.Idx → EReal)
    (W1 m ρ c (Proc.devRef .tc main_arg10) : S128x32.Idx → EReal) (row i) (col i)) 0 = _
  rw [mean_cites, W1_arg5, bias_c, W1_arg0, W1_arg7, mean_writes, W1_arg8, bias_w, W1_arg10]

/-! The first region writes only its output: every other buffer is as the first stretch left it. -/

theorem W2_v68 : (W2 m ρ c (Proc.devRef .tc main_v68) : S150000x128.Idx → EReal) = Cert.ReferenceIdeal.Read.val_main_v87 (F := Ideal) (m ((c : Thread nD τ).loc main_arg0)) (m ((c : Thread nD τ).loc main_arg4)) :=
  (W2_of_ne m ρ c main_v68 (by decide)).trans (mean_rev m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W2_arg19 : W2 m ρ c (Proc.devRef .tc main_arg19) = m ((c : Thread nD τ).loc main_arg19) :=
  (W2_of_ne m ρ c main_arg19 (by decide)).trans (W1_arg19 m ρ c)
theorem W2_arg23 : W2 m ρ c (Proc.devRef .tc main_arg23) = m ((c : Thread nD τ).loc main_arg23) :=
  (W2_of_ne m ρ c main_arg23 (by decide)).trans (W1_arg23 m ρ c)
theorem W2_arg24 : W2 m ρ c (Proc.devRef .tc main_arg24) = m ((c : Thread nD τ).loc main_arg24) :=
  (W2_of_ne m ρ c main_arg24 (by decide)).trans (W1_arg24 m ρ c)

/-! The one-operation stretch lays the author bias out as a row and writes nothing else. -/

theorem W3_arg1 : W3 m ρ c (Proc.devRef .tc main_arg1)
    = m ((c : Thread nD τ).loc main_arg1) := by
  refine Eq.trans ?_ (W2_arg1 m ρ c)
  show StableHlo.after hostOps1 (W2 m ρ c) (Proc.devRef .tc main_arg1) = _
  after_results_simp <;> rfl
theorem W3_arg2 : W3 m ρ c (Proc.devRef .tc main_arg2)
    = m ((c : Thread nD τ).loc main_arg2) := by
  refine Eq.trans ?_ (W2_arg2 m ρ c)
  show StableHlo.after hostOps1 (W2 m ρ c) (Proc.devRef .tc main_arg2) = _
  after_results_simp <;> rfl
theorem W3_arg3 : W3 m ρ c (Proc.devRef .tc main_arg3)
    = m ((c : Thread nD τ).loc main_arg3) := by
  refine Eq.trans ?_ (W2_arg3 m ρ c)
  show StableHlo.after hostOps1 (W2 m ρ c) (Proc.devRef .tc main_arg3) = _
  after_results_simp <;> rfl
theorem W3_arg11 : W3 m ρ c (Proc.devRef .tc main_arg11)
    = m ((c : Thread nD τ).loc main_arg11) := by
  refine Eq.trans ?_ (W2_arg11 m ρ c)
  show StableHlo.after hostOps1 (W2 m ρ c) (Proc.devRef .tc main_arg11) = _
  after_results_simp <;> rfl
theorem W3_arg13 : W3 m ρ c (Proc.devRef .tc main_arg13)
    = m ((c : Thread nD τ).loc main_arg13) := by
  refine Eq.trans ?_ (W2_arg13 m ρ c)
  show StableHlo.after hostOps1 (W2 m ρ c) (Proc.devRef .tc main_arg13) = _
  after_results_simp <;> rfl
theorem W3_arg14 : W3 m ρ c (Proc.devRef .tc main_arg14)
    = m ((c : Thread nD τ).loc main_arg14) := by
  refine Eq.trans ?_ (W2_arg14 m ρ c)
  show StableHlo.after hostOps1 (W2 m ρ c) (Proc.devRef .tc main_arg14) = _
  after_results_simp <;> rfl
theorem W3_arg15 : W3 m ρ c (Proc.devRef .tc main_arg15)
    = m ((c : Thread nD τ).loc main_arg15) := by
  refine Eq.trans ?_ (W2_arg15 m ρ c)
  show StableHlo.after hostOps1 (W2 m ρ c) (Proc.devRef .tc main_arg15) = _
  after_results_simp <;> rfl
theorem W3_arg16 : W3 m ρ c (Proc.devRef .tc main_arg16)
    = m ((c : Thread nD τ).loc main_arg16) := by
  refine Eq.trans ?_ (W2_arg16 m ρ c)
  show StableHlo.after hostOps1 (W2 m ρ c) (Proc.devRef .tc main_arg16) = _
  after_results_simp <;> rfl
theorem W3_arg17 : W3 m ρ c (Proc.devRef .tc main_arg17)
    = m ((c : Thread nD τ).loc main_arg17) := by
  refine Eq.trans ?_ (W2_arg17 m ρ c)
  show StableHlo.after hostOps1 (W2 m ρ c) (Proc.devRef .tc main_arg17) = _
  after_results_simp <;> rfl
theorem W3_arg18 : W3 m ρ c (Proc.devRef .tc main_arg18)
    = m ((c : Thread nD τ).loc main_arg18) := by
  refine Eq.trans ?_ (W2_arg18 m ρ c)
  show StableHlo.after hostOps1 (W2 m ρ c) (Proc.devRef .tc main_arg18) = _
  after_results_simp <;> rfl
theorem W3_arg19 : W3 m ρ c (Proc.devRef .tc main_arg19)
    = m ((c : Thread nD τ).loc main_arg19) := by
  refine Eq.trans ?_ (W2_arg19 m ρ c)
  show StableHlo.after hostOps1 (W2 m ρ c) (Proc.devRef .tc main_arg19) = _
  after_results_simp <;> rfl
theorem W3_arg23 : W3 m ρ c (Proc.devRef .tc main_arg23)
    = m ((c : Thread nD τ).loc main_arg23) := by
  refine Eq.trans ?_ (W2_arg23 m ρ c)
  show StableHlo.after hostOps1 (W2 m ρ c) (Proc.devRef .tc main_arg23) = _
  after_results_simp <;> rfl
theorem W3_arg24 : W3 m ρ c (Proc.devRef .tc main_arg24)
    = m ((c : Thread nD τ).loc main_arg24) := by
  refine Eq.trans ?_ (W2_arg24 m ρ c)
  show StableHlo.after hostOps1 (W2 m ρ c) (Proc.devRef .tc main_arg24) = _
  after_results_simp <;> rfl
theorem W3_v68 : (W3 m ρ c (Proc.devRef .tc main_v68) : S150000x128.Idx → EReal)
    = Cert.ReferenceIdeal.Read.val_main_v87 (F := Ideal) (m ((c : Thread nD τ).loc main_arg0)) (m ((c : Thread nD τ).loc main_arg4)) := by
  refine Eq.trans ?_ (W2_v68 m ρ c)
  show StableHlo.after hostOps1 (W2 m ρ c) (Proc.devRef .tc main_v68) = _
  after_results_simp <;> rfl
theorem W3_v71 : (W3 m ρ c (Proc.devRef .tc main_v71) : S300000x32.Idx → EReal)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine Eq.trans ?_ (paper_rows m ρ c)
  show StableHlo.after hostOps1 (W2 m ρ c) (Proc.devRef .tc main_v71) = _
  after_results_simp <;> rfl
/-- The reverse relation's bias row. -/
theorem bias_r : (W3 m ρ c (Proc.devRef .tc main_v72) : S1x32.Idx → EReal) = Cert.ReferenceIdeal.Read.val_main_v89 (F := Ideal) (m ((c : Thread nD τ).loc main_arg12)) := by
  show StableHlo.after hostOps1 (W2 m ρ c) (Proc.devRef .tc main_v72) = _
  after_results_simp
  rw [W2_arg12]
  exact bias_row89 _ _

/-- The author rows after the first layer: the second region's output is the reference's. -/
theorem author_rows : (W4 m ρ c (Proc.devRef .tc main_v73) : S150000x32.Idx → EReal)
    = Cert.ReferenceIdeal.Read.val_main_v95 (F := Ideal) (m ((c : Thread nD τ).loc main_arg0)) (m ((c : Thread nD τ).loc main_arg1)) (m ((c : Thread nD τ).loc main_arg4)) (m ((c : Thread nD τ).loc main_arg11)) (m ((c : Thread nD τ).loc main_arg12)) (m ((c : Thread nD τ).loc main_arg13)) := by
  refine (W4_arr m ρ c 5).trans ((AuthorLayer.final (V3 m ρ) c).trans ?_)
  funext i
  rw [Cert.ReferenceIdeal.Layers.author_apply]
  show layerOne (A := 150000) (K := 128) (K' := 64) (B := 32)
    (W3 m ρ c (Proc.devRef .tc main_v68) : S150000x128.Idx → EReal) (W3 m ρ c (Proc.devRef .tc main_arg11) : S128x32.Idx → EReal) (W3 m ρ c (Proc.devRef .tc main_v72) : S1x32.Idx → EReal)
    (W3 m ρ c (Proc.devRef .tc main_arg1) : S150000x64.Idx → EReal) (W3 m ρ c (Proc.devRef .tc main_arg13) : S64x32.Idx → EReal) (row i) (col i) = _
  rw [W3_v68, W3_arg11, bias_r, W3_arg1, W3_arg13]

/-! The second region writes only its output. -/

theorem W4_v71 : (W4 m ρ c (Proc.devRef .tc main_v71) : S300000x32.Idx → EReal) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_of_ne m ρ c main_v71 (by decide)).trans (W3_v71 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W4_arg18 : W4 m ρ c (Proc.devRef .tc main_arg18) = m ((c : Thread nD τ).loc main_arg18) :=
  (W4_of_ne m ρ c main_arg18 (by decide)).trans (W3_arg18 m ρ c)
theorem W4_arg19 : W4 m ρ c (Proc.devRef .tc main_arg19) = m ((c : Thread nD τ).loc main_arg19) :=
  (W4_of_ne m ρ c main_arg19 (by decide)).trans (W3_arg19 m ρ c)
theorem W4_arg23 : W4 m ρ c (Proc.devRef .tc main_arg23) = m ((c : Thread nD τ).loc main_arg23) :=
  (W4_of_ne m ρ c main_arg23 (by decide)).trans (W3_arg23 m ρ c)
theorem W4_arg24 : W4 m ρ c (Proc.devRef .tc main_arg24) = m ((c : Thread nD τ).loc main_arg24) :=
  (W4_of_ne m ρ c main_arg24 (by decide)).trans (W3_arg24 m ρ c)

end Cert.KernelIdeal.Stretch1

end
-- ==== Proof.OutputLayer.lean ====
/-
  The second dense layer with the output head, as one whole-array function of what the region finds.

  The region has 50 grid points; point `t` stages rows `6000·t … 6000·t + 5999` of the two second-round means and
  of the first layer's paper rows (all 32 wide), four 32 × 32 weight matrices, two bias rows, the 32 × 1 head
  weights and the 1 × 1 head bias whole, and writes back rows `6000·t …` of the 300000 × 1 result. Its body sums the
  two relations' terms left to right into a hidden row, multiplies the hidden row by the head's one column and adds
  the head's bias. So block `t` of the result is block `t` of the output head over the two-relation layer of the
  staged arrays, the blocks tile the result, and the result array after the region is that function.
-/
import proofs.«148805_j24232205484267_2_alg».proof.Proof.Gen.KernelIdeal.Frame
import proofs.«148805_j24232205484267_2_alg».proof.Proof.KernelDots
import Idealize.ShloMosaic.Lib.Pipeline.Value
import Idealize.ShloMosaic.Lib.ValueLayout

set_option maxRecDepth 16384

noncomputable section

namespace Cert.KernelIdeal.OutputLayer

open Cert.KernelIdeal Cert.KernelIdeal.Gen Cert.KernelIdeal.Dots Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden row at row `p`, column `q` of a block: the two-relation sum of the nine staged blocks. -/
theorem hidden_pay_apply (v0 v3 v6 : Vec Ideal S6000x32 .f32) (v9 v11 v13 v15 : Vec Ideal S32x32 .f32)
    (v20 v28 : Vec Ideal S1x32 .f32) (p : Fin 6000) (q : Fin 32) :
    k2_pay3 v0 v3 v6 v9 v11 v13 v15 v20 v28 (ix2 p q)
      = layerTwoSum (A := 6000) (K := 32) (K' := 32) (K'' := 32) (B := 32) v0 v9 v20 v3 v11 v6 v13 v28 v15 p q := by
  unfold k2_pay3 layerTwoSum
  simp only [truncf_apply, addf_apply]
  rw [matmul32_apply, matmul32_apply, matmul32_apply, matmul32_apply, broadcastTo_1b_ab_apply, broadcastTo_1b_ab_apply]
  simp only [shapeCast_self]
  rfl

/-- The head at row `p` of a block: the hidden row times the head's column, plus the head's bias. -/
theorem head_pay_apply (v18 : FVec Ideal S32x1 .bf16) (v34 : FVec Ideal S6000x32 .bf16) (v36 : Vec Ideal S1x1 .f32)
    (p : Fin 6000) (q : Fin 1) :
    k2_pay1 v18 v34 v36 (ix2 p q) = rowDot (A := 6000) (K := 32) (B := 1) v34 v18 p q + v36 (ix2 (0 : Fin 1) q) := by
  unfold k2_pay1
  simp only [addf_apply]
  rw [matmul32c_apply, broadcastTo_1b_ab_apply]
  simp only [shapeCast_self]

/-- The body's arithmetic at row `p` of a block: the output head over the two-relation sum of the staged blocks. -/
theorem pay_apply (x0 x1 x2 : Vec Ideal S6000x32 .f32) (x3 x5 x6 x8 : Vec Ideal S32x32 .f32) (x4 x7 : Vec Ideal S1x32 .f32)
    (x9 : Vec Ideal S32x1 .f32) (x10 : Vec Ideal S1x1 .f32) (p : Fin 6000) (q : Fin 1) :
    k2_pay1 (k2_pay2 x9) (k2_pay3 x0 x1 x2 x3 x5 x6 x8 x4 x7) x10 (ix2 p q)
      = headOut (A := 6000) (K := 32)
          (fun j => layerTwoSum (A := 6000) (K := 32) (K' := 32) (K'' := 32) (B := 32) x0 x3 x4 x1 x5 x2 x6 x7 x8 (row j) (col j))
          x9 x10 p q := by
  rw [head_pay_apply]
  unfold headOut rowDot
  refine congrArg₂ (fun a b : EReal => a + b) (Finset.sum_congr rfl fun k _ => ?_) rfl
  rw [hidden_pay_apply]
  rfl

/-- The region's result as one function of the arrays it finds. -/
def G (c : Dev nD) : S300000x1.Idx → EReal := fun i =>
  headOut (A := 300000) (K := 32)
    (fun j => layerTwoSum (A := 300000) (K := 32) (K' := 32) (K'' := 32) (B := 32)
      (V c main_v96 : S300000x32.Idx → EReal) (V c main_arg14 : S32x32.Idx → EReal) (V c main_v120 : S1x32.Idx → EReal)
      (V c main_v71 : S300000x32.Idx → EReal) (V c main_arg16 : S32x32.Idx → EReal)
      (V c main_v119 : S300000x32.Idx → EReal) (V c main_arg17 : S32x32.Idx → EReal) (V c main_v121 : S1x32.Idx → EReal)
      (V c main_arg19 : S32x32.Idx → EReal) (row j) (col j))
    (V c main_arg23 : S32x1.Idx → EReal) (V c main_v122 : S1x1.Idx → EReal) (row i) (col i)

/-- The printed index maps over the grid: the three row-blocked inputs move with the result's row block, the weights
    and the biases stay at block zero, and the result's row block is the point's number. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

/-- What point `t` writes back is block `t` of `G`. -/
theorem flushed_eq (c : Dev nD) (t : Fin cfg2.N) :
    (dat2 V c).flushed 11 t = ((cfg2.win 11).blk t).view.read (Elt Ideal) (G V c) := by
  show (cfg2.win 11).cut (grid2.coords t) ((dat2 V c).after 11 t) = _
  rw [after2_11]
  unfold out2_11
  rw [View.canon_unit_zero hz]
  simp only [View.ld_unit_zero (S := S6000x32) hz, View.ld_unit_zero (S := S32x32) hz, View.ld_unit_zero (S := S32x1) hz,
    View.ld_unit_zero (S := S1x32) hz, View.ld_unit_zero (S := S1x1) hz]
  obtain ⟨a0_0, a0_1, a1_0, a1_1, a2_0, a2_1, a3_0, a3_1, a4_0, a4_1, a5_0, a5_1, a6_0, a6_1, a7_0, a7_1, a8_0, a8_1, a9_0, a9_1, a10_0, a10_1, a11_0, a11_1⟩ := idx_facts t
  funext j
  obtain ⟨p, q, rfl⟩ : ∃ (p : Fin 6000) (q : Fin 1), j = ix2 p q := ⟨j 0, j 1, eq_ix2 j⟩
  show k2_pay1 (k2_pay2 (iblk2 V c 9 t)) (k2_pay3 (iblk2 V c 0 t) (iblk2 V c 1 t) (iblk2 V c 2 t) (iblk2 V c 3 t) (iblk2 V c 5 t)
      (iblk2 V c 6 t) (iblk2 V c 8 t) (iblk2 V c 4 t) (iblk2 V c 7 t)) (iblk2 V c 10 t) (ix2 p q)
    = G V c (((cfg2.win 11).blk t).view.emb (ix2 p q))
  rw [pay_apply]
  unfold G headOut
  have r0 : (row (((cfg2.win 11).blk t).view.emb (ix2 p q))).val = win2_11.index t (0 : Fin 2) * 6000 + 1 * p.val := rfl
  have r1 : (col (((cfg2.win 11).blk t).view.emb (ix2 p q))).val = win2_11.index t (1 : Fin 2) * 1 + 1 * q.val := rfl
  have h0 : ∀ k : Fin 32, iblk2 V c 0 t (ix2 p k)
      = (V c main_v96 : S300000x32.Idx → EReal) (ix2 (row (((cfg2.win 11).blk t).view.emb (ix2 p q))) k) := fun k => by
    show (V c main_v96 : S300000x32.Idx → EReal) (((cfg2.win 0).blk t).view.emb (ix2 p k)) = _
    refine congrArg _ (funext fun a => Fin.ext ?_)
    match a with
    | ⟨0, _⟩ => show win2_0.index t (0 : Fin 2) * 6000 + 1 * p.val = _; rw [r0]; omega
    | ⟨1, _⟩ => show win2_0.index t (1 : Fin 2) * 32 + 1 * k.val = k.val; omega
  have h1 : ∀ k : Fin 32, iblk2 V c 1 t (ix2 p k)
      = (V c main_v71 : S300000x32.Idx → EReal) (ix2 (row (((cfg2.win 11).blk t).view.emb (ix2 p q))) k) := fun k => by
    show (V c main_v71 : S300000x32.Idx → EReal) (((cfg2.win 1).blk t).view.emb (ix2 p k)) = _
    refine congrArg _ (funext fun a => Fin.ext ?_)
    match a with
    | ⟨0, _⟩ => show win2_1.index t (0 : Fin 2) * 6000 + 1 * p.val = _; rw [r0]; omega
    | ⟨1, _⟩ => show win2_1.index t (1 : Fin 2) * 32 + 1 * k.val = k.val; omega
  have h2 : ∀ k : Fin 32, iblk2 V c 2 t (ix2 p k)
      = (V c main_v119 : S300000x32.Idx → EReal) (ix2 (row (((cfg2.win 11).blk t).view.emb (ix2 p q))) k) := fun k => by
    show (V c main_v119 : S300000x32.Idx → EReal) (((cfg2.win 2).blk t).view.emb (ix2 p k)) = _
    refine congrArg _ (funext fun a => Fin.ext ?_)
    match a with
    | ⟨0, _⟩ => show win2_2.index t (0 : Fin 2) * 6000 + 1 * p.val = _; rw [r0]; omega
    | ⟨1, _⟩ => show win2_2.index t (1 : Fin 2) * 32 + 1 * k.val = k.val; omega
  have inner : ∀ s : Fin 32,
      layerTwoSum (A := 6000) (K := 32) (K' := 32) (K'' := 32) (B := 32) (iblk2 V c 0 t) (iblk2 V c 3 t) (iblk2 V c 4 t) (iblk2 V c 1 t)
        (iblk2 V c 5 t) (iblk2 V c 2 t) (iblk2 V c 6 t) (iblk2 V c 7 t) (iblk2 V c 8 t) p s
      = layerTwoSum (A := 300000) (K := 32) (K' := 32) (K'' := 32) (B := 32)
        (V c main_v96 : S300000x32.Idx → EReal) (V c main_arg14 : S32x32.Idx → EReal) (V c main_v120 : S1x32.Idx → EReal)
        (V c main_v71 : S300000x32.Idx → EReal) (V c main_arg16 : S32x32.Idx → EReal)
        (V c main_v119 : S300000x32.Idx → EReal) (V c main_arg17 : S32x32.Idx → EReal) (V c main_v121 : S1x32.Idx → EReal)
        (V c main_arg19 : S32x32.Idx → EReal) (row (((cfg2.win 11).blk t).view.emb (ix2 p q))) s := fun s => by
    unfold layerTwoSum rowDot
    have h3 : ∀ k : Fin 32, iblk2 V c 3 t (ix2 k s)
        = (V c main_arg14 : S32x32.Idx → EReal) (ix2 k s) := fun k => by
      show (V c main_arg14 : S32x32.Idx → EReal) (((cfg2.win 3).blk t).view.emb (ix2 k s)) = _
      refine congrArg _ (funext fun a => Fin.ext ?_)
      match a with
      | ⟨0, _⟩ => show win2_3.index t (0 : Fin 2) * 32 + 1 * k.val = k.val; omega
      | ⟨1, _⟩ => show win2_3.index t (1 : Fin 2) * 32 + 1 * s.val = s.val; omega
    have h4 : iblk2 V c 4 t (ix2 (0 : Fin 1) s)
        = (V c main_v120 : S1x32.Idx → EReal) (ix2 (0 : Fin 1) s) := by
      show (V c main_v120 : S1x32.Idx → EReal) (((cfg2.win 4).blk t).view.emb (ix2 (0 : Fin 1) s)) = _
      refine congrArg _ (funext fun a => Fin.ext ?_)
      match a with
      | ⟨0, _⟩ => show win2_4.index t (0 : Fin 2) * 1 + 1 * 0 = 0; omega
      | ⟨1, _⟩ => show win2_4.index t (1 : Fin 2) * 32 + 1 * s.val = s.val; omega
    have h5 : ∀ k : Fin 32, iblk2 V c 5 t (ix2 k s)
        = (V c main_arg16 : S32x32.Idx → EReal) (ix2 k s) := fun k => by
      show (V c main_arg16 : S32x32.Idx → EReal) (((cfg2.win 5).blk t).view.emb (ix2 k s)) = _
      refine congrArg _ (funext fun a => Fin.ext ?_)
      match a with
      | ⟨0, _⟩ => show win2_5.index t (0 : Fin 2) * 32 + 1 * k.val = k.val; omega
      | ⟨1, _⟩ => show win2_5.index t (1 : Fin 2) * 32 + 1 * s.val = s.val; omega
    have h6 : ∀ k : Fin 32, iblk2 V c 6 t (ix2 k s)
        = (V c main_arg17 : S32x32.Idx → EReal) (ix2 k s) := fun k => by
      show (V c main_arg17 : S32x32.Idx → EReal) (((cfg2.win 6).blk t).view.emb (ix2 k s)) = _
      refine congrArg _ (funext fun a => Fin.ext ?_)
      match a with
      | ⟨0, _⟩ => show win2_6.index t (0 : Fin 2) * 32 + 1 * k.val = k.val; omega
      | ⟨1, _⟩ => show win2_6.index t (1 : Fin 2) * 32 + 1 * s.val = s.val; omega
    have h7 : iblk2 V c 7 t (ix2 (0 : Fin 1) s)
        = (V c main_v121 : S1x32.Idx → EReal) (ix2 (0 : Fin 1) s) := by
      show (V c main_v121 : S1x32.Idx → EReal) (((cfg2.win 7).blk t).view.emb (ix2 (0 : Fin 1) s)) = _
      refine congrArg _ (funext fun a => Fin.ext ?_)
      match a with
      | ⟨0, _⟩ => show win2_7.index t (0 : Fin 2) * 1 + 1 * 0 = 0; omega
      | ⟨1, _⟩ => show win2_7.index t (1 : Fin 2) * 32 + 1 * s.val = s.val; omega
    have h8 : ∀ k : Fin 32, iblk2 V c 8 t (ix2 k s)
        = (V c main_arg19 : S32x32.Idx → EReal) (ix2 k s) := fun k => by
      show (V c main_arg19 : S32x32.Idx → EReal) (((cfg2.win 8).blk t).view.emb (ix2 k s)) = _
      refine congrArg _ (funext fun a => Fin.ext ?_)
      match a with
      | ⟨0, _⟩ => show win2_8.index t (0 : Fin 2) * 32 + 1 * k.val = k.val; omega
      | ⟨1, _⟩ => show win2_8.index t (1 : Fin 2) * 32 + 1 * s.val = s.val; omega
    rw [h4, h7, Finset.sum_congr rfl (fun k _ => congrArg₂ (fun a b : EReal => a * b) (h0 k) (h3 k)),
      Finset.sum_congr rfl (fun k _ => congrArg₂ (fun a b : EReal => a * b) (h1 k) (h5 k)),
      Finset.sum_congr rfl (fun k _ => congrArg₂ (fun a b : EReal => a * b) (h2 k) (h6 k)),
      Finset.sum_congr rfl (fun k _ => congrArg₂ (fun a b : EReal => a * b) (h1 k) (h8 k))]
  have h9 : ∀ k : Fin 32, iblk2 V c 9 t (ix2 k q)
      = (V c main_arg23 : S32x1.Idx → EReal) (ix2 k (col (((cfg2.win 11).blk t).view.emb (ix2 p q)))) := fun k => by
    show (V c main_arg23 : S32x1.Idx → EReal) (((cfg2.win 9).blk t).view.emb (ix2 k q)) = _
    refine congrArg _ (funext fun a => Fin.ext ?_)
    match a with
    | ⟨0, _⟩ => show win2_9.index t (0 : Fin 2) * 32 + 1 * k.val = k.val; omega
    | ⟨1, _⟩ => show win2_9.index t (1 : Fin 2) * 1 + 1 * q.val = _; rw [r1]; omega
  have h10 : iblk2 V c 10 t (ix2 (0 : Fin 1) q)
      = (V c main_v122 : S1x1.Idx → EReal) (ix2 (0 : Fin 1) (col (((cfg2.win 11).blk t).view.emb (ix2 p q)))) := by
    show (V c main_v122 : S1x1.Idx → EReal) (((cfg2.win 10).blk t).view.emb (ix2 (0 : Fin 1) q)) = _
    refine congrArg _ (funext fun a => Fin.ext ?_)
    match a with
    | ⟨0, _⟩ => show win2_10.index t (0 : Fin 2) * 1 + 1 * 0 = 0; omega
    | ⟨1, _⟩ => show win2_10.index t (1 : Fin 2) * 1 + 1 * q.val = _; rw [r1]; omega
  unfold rowDot
  exact congrArg₂ (fun a b : EReal => a + b)
    (Finset.sum_congr rfl fun k _ => congrArg₂ (fun a b : EReal => a * b) (inner k) (h9 k)) h10

/-- An index of the output array is in point `t`'s block iff each coordinate is in the block's range. -/
theorem mem_blk (t : Fin cfg2.N) (i : S300000x1.Idx) :
    i ∈ ((cfg2.win 11).blk t).view.set ↔ ∀ a : Fin 2, win2_11.index t a * S6000x1.size a ≤ (i a).val ∧ (i a).val < win2_11.index t a * S6000x1.size a + S6000x1.size a := by
  show i ∈ ((View.whole main_v123).slice (win2_11.rect t)).set ↔ _
  rw [View.set_slice_whole, Rect.mem_set_unit]
  exact Iff.rfl

/-- The blocks tile the output: row `r` is in the block of point `r / 6000`. -/
theorem cover (i : S300000x1.Idx) : ∃ t : Fin cfg2.N, (cfg2.win 11).flush t = true ∧ i ∈ ((cfg2.win 11).blk t).view.set := by
  have hi0 : (i 0).val < 300000 := (i 0).isLt
  have hi1 : (i 1).val < 1 := (i 1).isLt
  have hN : cfg2.N = 50 := N_2
  have ht : (i 0).val / 6000 < cfg2.N := by rw [hN]; omega
  have hf := idx_facts ⟨(i 0).val / 6000, ht⟩
  have e0 : win2_11.index ⟨(i 0).val / 6000, ht⟩ (0 : Fin 2) = (i 0).val / 6000 := by
    obtain ⟨a0_0, a0_1, a1_0, a1_1, a2_0, a2_1, a3_0, a3_1, a4_0, a4_1, a5_0, a5_1, a6_0, a6_1, a7_0, a7_1, a8_0, a8_1, a9_0, a9_1, a10_0, a10_1, a11_0, a11_1⟩ := hf; exact a11_0
  have e1 : win2_11.index ⟨(i 0).val / 6000, ht⟩ (1 : Fin 2) = 0 := by
    obtain ⟨a0_0, a0_1, a1_0, a1_1, a2_0, a2_1, a3_0, a3_1, a4_0, a4_1, a5_0, a5_1, a6_0, a6_1, a7_0, a7_1, a8_0, a8_1, a9_0, a9_1, a10_0, a10_1, a11_0, a11_1⟩ := hf; exact a11_1
  refine ⟨⟨(i 0).val / 6000, ht⟩, flush2_11 _, ?_⟩
  rw [mem_blk]
  intro a
  match a with
  | ⟨0, _⟩ =>
    show win2_11.index ⟨(i 0).val / 6000, ht⟩ (0 : Fin 2) * 6000 ≤ (i 0).val ∧ (i 0).val < win2_11.index ⟨(i 0).val / 6000, ht⟩ (0 : Fin 2) * 6000 + 6000
    rw [e0]; omega
  | ⟨1, _⟩ =>
    show win2_11.index ⟨(i 0).val / 6000, ht⟩ (1 : Fin 2) * 1 ≤ (i 1).val ∧ (i 1).val < win2_11.index ⟨(i 0).val / 6000, ht⟩ (1 : Fin 2) * 1 + 1
    rw [e1]; omega

/-- The output array after the region is `G` of the arrays the region found. -/
theorem final (c : Dev nD) : (dat2 V c).arrAt 11 cfg2.N = G V c :=
  (dat2 V c).arrAt_eq_of_cover 11 (G V c) (fun t _ => flushed_eq V c t) cover

end Cert.KernelIdeal.OutputLayer

end
-- ==== Proof.Stretch2.lean ====
/-
  The second round of means, the last region, and the result.

  The third stretch computes the two second-round neighbourhood means — the same gather, sum into destinations and
  division by the clamped edge count, now of the first layer's paper and author rows — and lays out two bias rows
  and the head's bias. Over the reference's first-layer rows these are the reference's stages of the same name.
  The last region's output is the output head over the two-relation layer of what it found: the reference's result.
-/
import proofs.«148805_j24232205484267_2_alg».proof.Proof.Stretch1
import proofs.«148805_j24232205484267_2_alg».proof.Proof.OutputLayer
import Idealize.ShloMosaic.Lib.StableHlo.Run
import Idealize.ShloMosaic.Lib.ValueLayout

set_option maxRecDepth 16384

noncomputable section

namespace Cert.KernelIdeal.Stretch2

open Cert.KernelIdeal Cert.KernelIdeal.Gen Cert.Sage Cert.KernelIdeal.Stretch0 Cert.KernelIdeal.Stretch1
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- A length-32 vector reshaped to a `1 × 32` row is the vector broadcast into that row (second layer, citation relation). -/
theorem bias_row122 (x : S32.Idx → EReal) (h : S32.ShapeCasts S1x32) :
    shapeCast S1x32 x h = Cert.ReferenceIdeal.Read.val_main_v122 (F := Ideal) x := by
  funext j
  obtain ⟨u, q, rfl⟩ : ∃ (u : Fin 1) (q : Fin 32), j = ix2 u q := ⟨j 0, j 1, eq_ix2 j⟩
  rw [shapeCast_a_1a_apply, Cert.ReferenceIdeal.Read.val_main_v122_apply]
  exact congrArg x (funext fun a => Fin.ext (by match a with | ⟨0, _⟩ => rfl))

/-- The same for the second layer's authorship relation. -/
theorem bias_row153 (x : S32.Idx → EReal) (h : S32.ShapeCasts S1x32) :
    shapeCast S1x32 x h = Cert.ReferenceIdeal.Read.val_main_v153 (F := Ideal) x := by
  funext j
  obtain ⟨u, q, rfl⟩ : ∃ (u : Fin 1) (q : Fin 32), j = ix2 u q := ⟨j 0, j 1, eq_ix2 j⟩
  rw [shapeCast_a_1a_apply, Cert.ReferenceIdeal.Read.val_main_v153_apply]
  exact congrArg x (funext fun a => Fin.ext (by match a with | ⟨0, _⟩ => rfl))

/-- The head's one-entry bias reshaped to `1 × 1` is the entry broadcast into that shape. -/
theorem head_bias (x : S1.Idx → EReal) (h : S1.ShapeCasts S1x1) :
    shapeCast S1x1 x h = Cert.ReferenceIdeal.Read.val_main_v160 (F := Ideal) x := by
  funext j
  obtain ⟨u, q, rfl⟩ : ∃ (u : Fin 1) (q : Fin 1), j = ix2 u q := ⟨j 0, j 1, eq_ix2 j⟩
  rw [shapeCast_a_1a_apply, Cert.ReferenceIdeal.Read.val_main_v160_apply]
  exact congrArg x (funext fun a => Fin.ext (by match a with | ⟨0, _⟩ => show q.val = 0; omega))

/-- The second-round citation mean is the reference's, over the reference's paper rows. -/
theorem mean_cites2 : (W5 m ρ c (Proc.devRef .tc main_v96) : S300000x32.Idx → EReal)
    = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 (W4 m ρ c) (Proc.devRef .tc main_v96) = _
  after_results_simp
  rw [W4_v71, W4_arg2]
  rfl

/-- The second-round authorship mean is the reference's, over the reference's author rows. -/
theorem mean_writes2 : (W5 m ρ c (Proc.devRef .tc main_v119) : S300000x32.Idx → EReal)
    = Cert.ReferenceIdeal.Read.val_main_v151 (F := Ideal) (m ((c : Thread nD τ).loc main_arg0)) (m ((c : Thread nD τ).loc main_arg1)) (m ((c : Thread nD τ).loc main_arg3)) (m ((c : Thread nD τ).loc main_arg4)) (m ((c : Thread nD τ).loc main_arg11)) (m ((c : Thread nD τ).loc main_arg12)) (m ((c : Thread nD τ).loc main_arg13)) := by
  show StableHlo.after hostOps2 (W4 m ρ c) (Proc.devRef .tc main_v119) = _
  after_results_simp
  rw [author_rows, W4_arg3]
  rfl

theorem bias_c2 : (W5 m ρ c (Proc.devRef .tc main_v120) : S1x32.Idx → EReal) = Cert.ReferenceIdeal.Read.val_main_v122 (F := Ideal) (m ((c : Thread nD τ).loc main_arg15)) := by
  show StableHlo.after hostOps2 (W4 m ρ c) (Proc.devRef .tc main_v120) = _
  after_results_simp
  rw [W4_arg15]
  exact bias_row122 _ _

theorem bias_w2 : (W5 m ρ c (Proc.devRef .tc main_v121) : S1x32.Idx → EReal) = Cert.ReferenceIdeal.Read.val_main_v153 (F := Ideal) (m ((c : Thread nD τ).loc main_arg18)) := by
  show StableHlo.after hostOps2 (W4 m ρ c) (Proc.devRef .tc main_v121) = _
  after_results_simp
  rw [W4_arg18]
  exact bias_row153 _ _

theorem bias_out : (W5 m ρ c (Proc.devRef .tc main_v122) : S1x1.Idx → EReal) = Cert.ReferenceIdeal.Read.val_main_v160 (F := Ideal) (m ((c : Thread nD τ).loc main_arg24)) := by
  show StableHlo.after hostOps2 (W4 m ρ c) (Proc.devRef .tc main_v122) = _
  after_results_simp
  rw [W4_arg24]
  exact head_bias _ _

theorem W5_v71 : (W5 m ρ c (Proc.devRef .tc main_v71) : S300000x32.Idx → EReal)
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine Eq.trans ?_ (W4_v71 m ρ c)
  show StableHlo.after hostOps2 (W4 m ρ c) (Proc.devRef .tc main_v71) = _
  after_results_simp <;> rfl
theorem W5_arg14 : W5 m ρ c (Proc.devRef .tc main_arg14)
    = m ((c : Thread nD τ).loc main_arg14) := by
  refine Eq.trans ?_ (W4_arg14 m ρ c)
  show StableHlo.after hostOps2 (W4 m ρ c) (Proc.devRef .tc main_arg14) = _
  after_results_simp <;> rfl
theorem W5_arg16 : W5 m ρ c (Proc.devRef .tc main_arg16)
    = m ((c : Thread nD τ).loc main_arg16) := by
  refine Eq.trans ?_ (W4_arg16 m ρ c)
  show StableHlo.after hostOps2 (W4 m ρ c) (Proc.devRef .tc main_arg16) = _
  after_results_simp <;> rfl
theorem W5_arg17 : W5 m ρ c (Proc.devRef .tc main_arg17)
    = m ((c : Thread nD τ).loc main_arg17) := by
  refine Eq.trans ?_ (W4_arg17 m ρ c)
  show StableHlo.after hostOps2 (W4 m ρ c) (Proc.devRef .tc main_arg17) = _
  after_results_simp <;> rfl
theorem W5_arg19 : W5 m ρ c (Proc.devRef .tc main_arg19)
    = m ((c : Thread nD τ).loc main_arg19) := by
  refine Eq.trans ?_ (W4_arg19 m ρ c)
  show StableHlo.after hostOps2 (W4 m ρ c) (Proc.devRef .tc main_arg19) = _
  after_results_simp <;> rfl
theorem W5_arg23 : W5 m ρ c (Proc.devRef .tc main_arg23)
    = m ((c : Thread nD τ).loc main_arg23) := by
  refine Eq.trans ?_ (W4_arg23 m ρ c)
  show StableHlo.after hostOps2 (W4 m ρ c) (Proc.devRef .tc main_arg23) = _
  after_results_simp <;> rfl

/-- THE RESULT: the result buffer's contents at the last fold are the reference's result stage of the launch
    contents. -/
theorem result : (W6 m ρ c (Proc.devRef .tc main_v123) : S300000x1.Idx → EReal)
    = Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg23)) (m ((c : Thread nD τ).loc main_arg24)) := by
  refine (W6_arr m ρ c 11).trans ((OutputLayer.final (V5 m ρ) c).trans ?_)
  funext i
  rw [Cert.ReferenceIdeal.Layers.out_apply]
  show headOut (A := 300000) (K := 32)
    (fun j => layerTwoSum (A := 300000) (K := 32) (K' := 32) (K'' := 32) (B := 32)
      (W5 m ρ c (Proc.devRef .tc main_v96) : S300000x32.Idx → EReal) (W5 m ρ c (Proc.devRef .tc main_arg14) : S32x32.Idx → EReal) (W5 m ρ c (Proc.devRef .tc main_v120) : S1x32.Idx → EReal)
      (W5 m ρ c (Proc.devRef .tc main_v71) : S300000x32.Idx → EReal) (W5 m ρ c (Proc.devRef .tc main_arg16) : S32x32.Idx → EReal)
      (W5 m ρ c (Proc.devRef .tc main_v119) : S300000x32.Idx → EReal) (W5 m ρ c (Proc.devRef .tc main_arg17) : S32x32.Idx → EReal) (W5 m ρ c (Proc.devRef .tc main_v121) : S1x32.Idx → EReal)
      (W5 m ρ c (Proc.devRef .tc main_arg19) : S32x32.Idx → EReal) (row j) (col j))
    (W5 m ρ c (Proc.devRef .tc main_arg23) : S32x1.Idx → EReal) (W5 m ρ c (Proc.devRef .tc main_v122) : S1x1.Idx → EReal) (row i) (col i) = _
  rw [mean_cites2, W5_arg14, bias_c2, W5_v71, W5_arg16, mean_writes2, W5_arg17, bias_w2, W5_arg19, W5_arg23, bias_out]

end Cert.KernelIdeal.Stretch2

end
-- ==== Proof.lean ====
/-
  The kernel computes a two-layer mean-aggregating network over a graph of paper and author nodes with three
  relations (paper cites paper, author writes paper, and its reverse), followed by a one-column output head over
  the paper nodes; the reference computes the same network with plain array operations.

  Neighbourhood means. For a relation with edges (source, destination), the mean at a destination row is the sum of
  the source rows over the edges ending there, divided by the number of such edges clamped at one from below. Both
  programs compute it by the same host operations (gather, accumulate into destinations, divide), so on both sides
  it is one and the same function of the source array and the edge list; it is never opened.

  Dense layers. Per destination row, a relation contributes mean · Wl + bias + own · Wr. Paper rows receive two
  relations: the kernel adds the six terms left to right inside one blocked region, the reference adds the two
  relations' three-term sums; addition of extended reals is associative, so the two agree with no finiteness
  assumption. The first layer clamps at zero; the second layer's sum is multiplied by the head's weight column and
  the head's bias added. The kernel rounds its matrix operands to a narrower float format before each product;
  on the extended reals a change of format is the identity. A product's entry is on both sides the sum over the
  contracted axis of row entry times column entry.

  Blocks. Each of the kernel's three regions walks the destination rows in blocks of 6000: point `t` reads rows
  `6000·t … 6000·t + 5999` of its row-blocked inputs and the small weight and bias arrays whole, and writes the same
  rows of its output. The blocks tile the output, so the output array after a region is one function of the arrays
  the region found, row by row. Composing through the three stretches of host operations and the three regions, the
  result buffer ends holding the reference's result stage of the launch contents.

  The three frames are the generated ones (the reference's is its generated run with the result dropped); the
  idealization rewrote no operation, so there is nothing to preserve; the precondition is not used.
-/
import proofs.«148805_j24232205484267_2_alg».proof.Defs
import proofs.«148805_j24232205484267_2_alg».proof.Proof.Gen.Kernel
import proofs.«148805_j24232205484267_2_alg».proof.Proof.Gen.Kernel.Skeleton
import proofs.«148805_j24232205484267_2_alg».proof.Proof.Gen.Kernel.Launch
import proofs.«148805_j24232205484267_2_alg».proof.Proof.Gen.Kernel.Points
import proofs.«148805_j24232205484267_2_alg».proof.Proof.Gen.Kernel.Frame
import proofs.«148805_j24232205484267_2_alg».proof.Proof.Gen.KernelIdeal
import proofs.«148805_j24232205484267_2_alg».proof.Proof.Gen.KernelIdeal.Skeleton
import proofs.«148805_j24232205484267_2_alg».proof.Proof.Gen.KernelIdeal.Launch
import proofs.«148805_j24232205484267_2_alg».proof.Proof.Gen.KernelIdeal.Points
import proofs.«148805_j24232205484267_2_alg».proof.Proof.Gen.KernelIdeal.Frame
import proofs.«148805_j24232205484267_2_alg».proof.Proof.Gen.ReferenceIdeal
import proofs.«148805_j24232205484267_2_alg».proof.Proof.Gen.ReferenceIdeal.Run
import proofs.«148805_j24232205484267_2_alg».proof.Proof.Gen.ReferenceIdeal.Read
import proofs.«148805_j24232205484267_2_alg».proof.Proof.Gen.Pre_finite_inputs
import proofs.«148805_j24232205484267_2_alg».proof.Proof.KernelRun
import proofs.«148805_j24232205484267_2_alg».proof.Proof.Stretch2
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel's result buffer ends
    at the reference's result stage of its own launch contents, the reference's at that stage of its launch contents,
    and the launch contents agree. -/
theorem algebraic : Cert.algebraic_KernelIdeal_ReferenceIdeal := by
  intro m ρ m' ρ' _ hagree
  refine ⟨fun c => Cert.KernelIdeal.Gen.W6 m ρ c (Proc.devRef .tc Cert.KernelIdeal.main_v123),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24⟩ := hagree c
  rw [Cert.ReferenceIdeal.Read.val_main_v162_eq, e0, e1, e2, e3, e4, e5, e6, e7, e8, e9, e10, e11, e12, e13, e14, e15, e16, e17, e18, e19, e23, e24]
  exact (Cert.KernelIdeal.Stretch2.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
